-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 77
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x16, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x16, .f32⟩
  | .hbm, ⟨68, _⟩ => ⟨S1700000x1, .f32⟩
  | .hbm, ⟨69, _⟩ => ⟨S1700000x16, .f32⟩
  | .hbm, ⟨70, _⟩ => ⟨S1700000x16, .f32⟩
  | .hbm, ⟨71, _⟩ => ⟨S_, .f32⟩
  | .hbm, ⟨72, _⟩ => ⟨S100000x16, .f32⟩
  | .hbm, ⟨73, _⟩ => ⟨S1700000x1, .i32⟩
  | .hbm, ⟨74, _⟩ => ⟨S100000x16, .f32⟩
  | .hbm, ⟨75, _⟩ => ⟨S1x16, .f32⟩
  | .hbm, ⟨76, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x16, .f32⟩
  | .local _ .vmem, ⟨13, _⟩ => ⟨S10000x16, .f32⟩
  | .local _ .vmem, ⟨14, _⟩ => ⟨S10000x16, .f32⟩
  | .local _ .vmem, ⟨15, _⟩ => ⟨S2000x16, .f32⟩
  | .local _ .vmem, ⟨16, _⟩ => ⟨S2000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x16, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x16, .f32⟩
  | .hbm, ⟨72, _⟩ => ⟨S1700000x1, .f32⟩
  | .hbm, ⟨73, _⟩ => ⟨S1700000x16, .f32⟩
  | .hbm, ⟨74, _⟩ => ⟨S1700000x16, .f32⟩
  | .hbm, ⟨75, _⟩ => ⟨S_, .f32⟩
  | .hbm, ⟨76, _⟩ => ⟨S100000x16, .f32⟩
  | .hbm, ⟨77, _⟩ => ⟨S1700000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x16, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x16, .f32⟩
  | .hbm, ⟨96, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named.  The program is four pipelined regions among three stretches of
  host operations; the generated frame certificate folds the buffer contents through those seven segments
  (the valuations W0 … W7) and reads the final state against the last one.  Here the same launch is posted
  once more with the result buffer kept: after every weakly fair execution the result array holds what the
  last valuation holds at the result's reference, and the six argument arrays are as launched.
-/
import proofs.«165960_j16389595201742_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates without a fault; its result array ends at the
    last boundary's contents at the result's reference, and each argument array ends as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.Spec.lean ====
/-
  The two-layer graph convolution as functions on extended reals, entry by entry.

  The dense pieces are: a feature projection (rows of a [100000, 64] array against the columns of a [64, 64] or
  [64, 16] weight array: a sum of 64 products per entry); a bias added to every row followed by the positive part;
  and a bias added to every row followed by the row-wise log-softmax, written as both programs compute it:
  with z the biased row and M its largest entry, the entry z_q - M minus the logarithm of the sum over the row of
  exp (z_k - M).  The sparse aggregation between them (gather by source node, scale by the edge's normalization,
  sum into the destination node) is the same host computation in both programs and is never opened.
-/
import Idealize.ShloMosaic.PureOps.Ideal
import Idealize.ShloMosaic.Lib.ValueIdx

noncomputable section

namespace Cert.Spec

open Idealize.ShloMosaic Idealize.ShloMosaic.ValueIdx

/-- Rows of `x` against columns of `w`, 64 features wide: entry (r, q) is the sum over k of x[r, k] · w[k, q]. -/
def proj64 (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (⟨(i 0).val, idx2_lt0 i⟩ : Fin 100000) k) * w (ix2 k (⟨(i 1).val, idx2_lt1 i⟩ : Fin 64))

theorem proj64_apply (x : (⟨2, ![100000, 64]⟩ : Shape).Idx → EReal) (w : (⟨2, ![64, 64]⟩ : Shape).Idx → EReal)
    (r : Fin 100000) (q : Fin 64) : proj64 x w (ix2 r q) = ∑ k : Fin 64, x (ix2 r k) * w (ix2 k q) := rfl

/-- The same against a [64, 16] weight array. -/
def proj16 (x : (⟨2, ![100000, 64]⟩ : Shape).Idx → EReal) (w : (⟨2, ![64, 16]⟩ : Shape).Idx → EReal) :
    (⟨2, ![100000, 16]⟩ : Shape).Idx → EReal :=
  fun i => ∑ k : Fin 64, x (ix2 (⟨(i 0).val, idx2_lt0 i⟩ : Fin 100000) k) * w (ix2 k (⟨(i 1).val, idx2_lt1 i⟩ : Fin 16))

theorem proj16_apply (x : (⟨2, ![100000, 64]⟩ : Shape).Idx → EReal) (w : (⟨2, ![64, 16]⟩ : Shape).Idx → EReal)
    (r : Fin 100000) (q : Fin 16) : proj16 x w (ix2 r q) = ∑ k : Fin 64, x (ix2 r k) * w (ix2 k q) := rfl

/-- The bias (a single row) added to every row, then the positive part: entry (r, q) is max (a[r, q] + b[0, q]) z,
    z the value of the zero word. -/
def biasRelu (a : (⟨2, ![100000, 64]⟩ : Shape).Idx → EReal) (b : (⟨2, ![1, 64]⟩ : Shape).Idx → EReal) :
    (⟨2, ![100000, 64]⟩ : Shape).Idx → EReal :=
  fun i => max (a i + b (ix2 (0 : Fin 1) (⟨(i 1).val, idx2_lt1 i⟩ : Fin 64))) (Ideal.ofBits .f32 0x00000000#32)

theorem biasRelu_apply (a : (⟨2, ![100000, 64]⟩ : Shape).Idx → EReal) (b : (⟨2, ![1, 64]⟩ : Shape).Idx → EReal)
    (r : Fin 100000) (q : Fin 64) :
    biasRelu a b (ix2 r q) = max (a (ix2 r q) + b (ix2 (0 : Fin 1) q)) (Ideal.ofBits .f32 0x00000000#32) := rfl

/-- A row of logits with the bias added. -/
def biased16 (a : (⟨2, ![100000, 16]⟩ : Shape).Idx → EReal) (b : (⟨2, ![1, 16]⟩ : Shape).Idx → EReal)
    (r : Fin 100000) (q : Fin 16) : EReal := a (ix2 r q) + b (ix2 (0 : Fin 1) q)

/-- The largest entry of a biased row, as the fold of `max` from the value of the word of minus infinity. -/
def rowMax (a : (⟨2, ![100000, 16]⟩ : Shape).Idx → EReal) (b : (⟨2, ![1, 16]⟩ : Shape).Idx → EReal) (r : Fin 100000) : EReal :=
  (Finset.univ : Finset (Fin 16)).fold max (Ideal.ofBits .f32 0xFF800000#32) (fun k => biased16 a b r k)

/-- The row-wise log-softmax of the biased logits, in the shifted form both programs compute. -/
def biasLogSoftmax (a : (⟨2, ![100000, 16]⟩ : Shape).Idx → EReal) (b : (⟨2, ![1, 16]⟩ : Shape).Idx → EReal) :
    (⟨2, ![100000, 16]⟩ : Shape).Idx → EReal :=
  fun i =>
    let r : Fin 100000 := ⟨(i 0).val, idx2_lt0 i⟩
    let q : Fin 16 := ⟨(i 1).val, idx2_lt1 i⟩
    (biased16 a b r q - rowMax a b r)
      - Ideal.log (∑ k : Fin 16, Ideal.exp (biased16 a b r k - rowMax a b r))

theorem biasLogSoftmax_apply (a : (⟨2, ![100000, 16]⟩ : Shape).Idx → EReal) (b : (⟨2, ![1, 16]⟩ : Shape).Idx → EReal)
    (r : Fin 100000) (q : Fin 16) :
    biasLogSoftmax a b (ix2 r q)
      = (biased16 a b r q - rowMax a b r) - Ideal.log (∑ k : Fin 16, Ideal.exp (biased16 a b r k - rowMax a b r)) := rfl

end Cert.Spec

end
-- ==== Proof.RegionProj1.lean ====
/-
  The first projection, region by region: the pipelined kernel multiplies a block of 10000 rows of the features by the
  whole [64, 64] weight array at each of its ten grid points and writes the block back; the blocks tile the [100000, 64]
  result, so after the region the result array is the whole product, entry by entry the sum over k of x[r, k] · w[k, q].
-/
import proofs.«165960_j16389595201742_2_alg».proof.Proof.Gen.KernelIdeal.Frame
import proofs.«165960_j16389595201742_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem zero_offsets : (![0, 0] : Fin 2 → Nat) = fun _ => 0 := funext fun a => by fin_cases a <;> rfl

theorem d0_lhs0 (i : S10000x64.Idx) (q : (dot_S10000x64_S64x64_S10000x64_1_0_0_1_n_n).contr.Idx) : ((dot_S10000x64_S64x64_S10000x64_1_0_0_1_n_n).lhsIdx i q 0).val = (i 0).val := by
  unfold DotDims.lhsIdx
  rw [dif_neg (show ¬(0 : Fin S10000x64.rank) ∈ (dot_S10000x64_S64x64_S10000x64_1_0_0_1_n_n).lhsBatch by decide), dif_pos (show (0 : Fin S10000x64.rank) ∈ (dot_S10000x64_S64x64_S10000x64_1_0_0_1_n_n).lhsNonContracting by decide)]
  rfl
theorem d0_lhs1 (i : S10000x64.Idx) (q : (dot_S10000x64_S64x64_S10000x64_1_0_0_1_n_n).contr.Idx) : ((dot_S10000x64_S64x64_S10000x64_1_0_0_1_n_n).lhsIdx i q 1).val = (q ⟨0, by decide⟩).val :=
  (dot_S10000x64_S64x64_S10000x64_1_0_0_1_n_n).lhsIdx_val_of_single rfl i q
theorem d0_rhs0 (i : S10000x64.Idx) (q : (dot_S10000x64_S64x64_S10000x64_1_0_0_1_n_n).contr.Idx) : ((dot_S10000x64_S64x64_S10000x64_1_0_0_1_n_n).rhsIdx i q 0).val = (q ⟨0, by decide⟩).val :=
  (dot_S10000x64_S64x64_S10000x64_1_0_0_1_n_n).rhsIdx_val_of_single rfl i q
theorem d0_rhs1 (i : S10000x64.Idx) (q : (dot_S10000x64_S64x64_S10000x64_1_0_0_1_n_n).contr.Idx) : ((dot_S10000x64_S64x64_S10000x64_1_0_0_1_n_n).rhsIdx i q 1).val = (i 1).val := by
  unfold DotDims.rhsIdx
  rw [dif_neg (show ¬(1 : Fin S64x64.rank) ∈ (dot_S10000x64_S64x64_S10000x64_1_0_0_1_n_n).rhsBatch by decide), dif_pos (show (1 : Fin S64x64.rank) ∈ (dot_S10000x64_S64x64_S10000x64_1_0_0_1_n_n).rhsNonContracting by decide)]
  rfl

/-- The body's product at entry (p, q) of the block: the sum over k of the loaded rows' x[p, k] times the weights' w[k, q]
    (the two format changes are the identity on extended reals, the accumulator is the zero splat). -/
theorem block_product0 (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  simp only [matmul]
  rw [Ideal.matmul_constant_zero_apply, ← Equiv.sum_comp (contrEquiv1 (dot_S10000x64_S64x64_S10000x64_1_0_0_1_n_n) 64 rfl rfl).symm]
  refine Finset.sum_congr rfl fun k _ => ?_
  have hk := contrEquiv1_symm_val (dot_S10000x64_S64x64_S10000x64_1_0_0_1_n_n) 64 rfl rfl k
  have el : (dot_S10000x64_S64x64_S10000x64_1_0_0_1_n_n).lhsIdx (ix2 p q) ((contrEquiv1 (dot_S10000x64_S64x64_S10000x64_1_0_0_1_n_n) 64 rfl rfl).symm k) = ix2 p k := funext fun a => Fin.ext (by
    match a with
    | ⟨0, _⟩ => exact d0_lhs0 _ _
    | ⟨1, _⟩ => exact (d0_lhs1 _ _).trans hk)
  have er : (dot_S10000x64_S64x64_S10000x64_1_0_0_1_n_n).rhsIdx (ix2 p q) ((contrEquiv1 (dot_S10000x64_S64x64_S10000x64_1_0_0_1_n_n) 64 rfl rfl).symm k) = ix2 k q := funext fun a => Fin.ext (by
    match a with
    | ⟨0, _⟩ => exact (d0_rhs0 _ _).trans hk
    | ⟨1, _⟩ => exact d0_rhs1 _ _)
  rw [truncf_apply, truncf_apply, el, er]

/-- The printed index maps over the ten grid points: the row blocks of the features and of the result move with the point,
    the weights' one block stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_proj0 (c : Dev nD) (t : Fin cfg0.N) :
    (dat0 V c).flushed 2 t = ((cfg0.win 2).blk t).view.read (Elt Ideal)
      (proj64 (V c main_arg0) (V c main_arg2) : Buf (Elt Ideal) ((cfg0.win 2).arr.view.loc (c.tc : Thread nD τ))) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨e0, e1, e2, e3, e4, e5⟩ := index_maps0 t
  have ht : t.val < 10 := t.isLt
  funext j
  obtain ⟨p, q, rfl⟩ : ∃ (p : Fin 10000) (q : Fin 64), j = ix2 p q := ⟨j 0, j 1, eq_ix2 j⟩
  refine (block_product0 _ _ p q).trans ?_
  rw [View.read_apply]
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb]
  refine (Finset.sum_congr rfl fun k _ => ?_).trans (proj64_apply _ _ _ q).symm
  unfold iblk0
  rw [View.read_apply, View.read_apply]
  have h0 : ((cfg0.win 0).blk t).view.emb (ix2 p k) = ix2 (⟨t.val * 10000 + p.val, hr⟩ : Fin 100000) k := by
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have h1 : ((cfg0.win 1).blk t).view.emb (ix2 k q) = ix2 k q := by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [h0, h1]
  rfl

/-- An index of the result array is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- The ten row blocks tile the result: row r lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨e0, e1, e2, e3, e4, e5⟩ := index_maps0 t
  have htv : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the whole product of the two arrays the region found. -/
theorem region0_result (c : Dev nD) :
    (dat0 V c).arrAt 2 cfg0.N = (proj64 (V c main_arg0) (V c main_arg2) : Buf (Elt Ideal) ((cfg0.win 2).arr.view.loc (c.tc : Thread nD τ))) :=
  (dat0 V c).arrAt_eq_of_cover 2 _ (fun t _ => flushed_proj0 V c t) cover0

end Cert.KernelIdeal.Hand

end
-- ==== Proof.RegionBiasRelu.lean ====
/-
  The bias and positive part of the first layer, region by region: at each of its ten grid points the pipelined kernel
  adds the bias row to a block of 10000 rows of the aggregated features and takes the maximum with zero; the blocks tile
  the [100000, 64] result, so after the region the result array is, entry by entry, max (a[r, q] + b[0, q]) 0.
-/
import proofs.«165960_j16389595201742_2_alg».proof.Proof.Gen.KernelIdeal.Frame
import proofs.«165960_j16389595201742_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem zero_offsets1 : (![0, 0] : Fin 2 → Nat) = fun _ => 0 := funext fun a => by fin_cases a <;> rfl

/-- The body's value at entry (p, q) of the block: the loaded entry plus the bias row's entry, against zero. -/
theorem block_biasRelu (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- The printed index maps over the ten grid points. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the biased positive part of the arrays the region finds. -/
theorem flushed_biasRelu (c : Dev nD) (t : Fin cfg1.N) :
    (dat1 V c).flushed 2 t = ((cfg1.win 2).blk t).view.read (Elt Ideal)
      (biasRelu (V c main_v40) (V c main_v41) : Buf (Elt Ideal) ((cfg1.win 2).arr.view.loc (c.tc : Thread nD τ))) := by
  show (cfg1.win 2).cut (grid1.coords t) ((dat1 V c).after 2 t) = _
  rw [after1_2]
  unfold out1_2
  rw [View.canon_unit_zero zero_offsets1]
  simp only [View.ld_unit_zero (S := S10000x64) zero_offsets1, View.ld_unit_zero (S := S1x64) zero_offsets1]
  obtain ⟨e0, e1, e2, e3, e4, e5⟩ := index_maps1 t
  have ht : t.val < 10 := t.isLt
  funext j
  obtain ⟨p, q, rfl⟩ : ∃ (p : Fin 10000) (q : Fin 64), j = ix2 p q := ⟨j 0, j 1, eq_ix2 j⟩
  refine (block_biasRelu _ _ p q).trans ?_
  rw [View.read_apply]
  have hr : t.val * 10000 + p.val < 100000 := by have := p.isLt; omega
  have hemb : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  rw [hemb]
  refine Eq.trans ?_ (biasRelu_apply _ _ _ q).symm
  unfold iblk1
  rw [View.read_apply, View.read_apply]
  have h0 : ((cfg1.win 0).blk t).view.emb (ix2 p q) = ix2 (⟨t.val * 10000 + p.val, hr⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  rw [h0, h1]
  rfl

/-- An index of the result array is in point `t`'s block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- The ten row blocks tile the result: row r lies in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by show (i 0).val / 10000 < 10; omega⟩
  obtain ⟨e0, e1, e2, e3, e4, e5⟩ := index_maps1 t
  have htv : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the result array is the biased positive part of the two arrays the region found. -/
theorem region1_result (c : Dev nD) :
    (dat1 V c).arrAt 2 cfg1.N = (biasRelu (V c main_v40) (V c main_v41) : Buf (Elt Ideal) ((cfg1.win 2).arr.view.loc (c.tc : Thread nD τ))) :=
  (dat1 V c).arrAt_eq_of_cover 2 _ (fun t _ => flushed_biasRelu V c t) cover1

end Cert.KernelIdeal.Hand

end
-- ==== Proof.RegionProj2.lean ====
/-
  The second projection, region by region: the pipelined kernel multiplies a block of 10000 rows of the hidden features by
  the whole [64, 16] weight array at each of its ten grid points and writes the block back; the blocks tile the
  [100000, 16] result, so after the region the result array is the whole product, entry by entry the sum over k of
  h[r, k] · w[k, q].
-/
import proofs.«165960_j16389595201742_2_alg».proof.Proof.Gen.KernelIdeal.Frame
import proofs.«165960_j16389595201742_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem zero_offsets2 : (![0, 0] : Fin 2 → Nat) = fun _ => 0 := funext fun a => by fin_cases a <;> rfl

theorem d2_lhs0 (i : S10000x16.Idx) (q : (dot_S10000x64_S64x16_S10000x16_1_0_0_1_n_n).contr.Idx) : ((dot_S10000x64_S64x16_S10000x16_1_0_0_1_n_n).lhsIdx i q 0).val = (i 0).val := by
  unfold DotDims.lhsIdx
  rw [dif_neg (show ¬(0 : Fin S10000x64.rank) ∈ (dot_S10000x64_S64x16_S10000x16_1_0_0_1_n_n).lhsBatch by decide), dif_pos (show (0 : Fin S10000x64.rank) ∈ (dot_S10000x64_S64x16_S10000x16_1_0_0_1_n_n).lhsNonContracting by decide)]
  rfl
theorem d2_lhs1 (i : S10000x16.Idx) (q : (dot_S10000x64_S64x16_S10000x16_1_0_0_1_n_n).contr.Idx) : ((dot_S10000x64_S64x16_S10000x16_1_0_0_1_n_n).lhsIdx i q 1).val = (q ⟨0, by decide⟩).val :=
  (dot_S10000x64_S64x16_S10000x16_1_0_0_1_n_n).lhsIdx_val_of_single rfl i q
theorem d2_rhs0 (i : S10000x16.Idx) (q : (dot_S10000x64_S64x16_S10000x16_1_0_0_1_n_n).contr.Idx) : ((dot_S10000x64_S64x16_S10000x16_1_0_0_1_n_n).rhsIdx i q 0).val = (q ⟨0, by decide⟩).val :=
  (dot_S10000x64_S64x16_S10000x16_1_0_0_1_n_n).rhsIdx_val_of_single rfl i q
theorem d2_rhs1 (i : S10000x16.Idx) (q : (dot_S10000x64_S64x16_S10000x16_1_0_0_1_n_n).contr.Idx) : ((dot_S10000x64_S64x16_S10000x16_1_0_0_1_n_n).rhsIdx i q 1).val = (i 1).val := by
  unfold DotDims.rhsIdx
  rw [dif_neg (show ¬(1 : Fin S64x16.rank) ∈ (dot_S10000x64_S64x16_S10000x16_1_0_0_1_n_n).rhsBatch by decide), dif_pos (show (1 : Fin S64x16.rank) ∈ (dot_S10000x64_S64x16_S10000x16_1_0_0_1_n_n).rhsNonContracting by decide)]
  rfl

/-- The body's product at entry (p, q) of the block: the sum over k of the loaded rows' h[p, k] times the weights' w[k, q]
    (the two format changes are the identity on extended reals, the accumulator is the zero splat). -/
theorem block_product2 (x0 : Vec Ideal S10000x64 .f32) (x1 : Vec Ideal S64x16 .f32) (p : Fin 10000) (q : Fin 16) :
    k2_pay1 x0 x1 (ix2 p q) = ∑ k : Fin 64, x0 (ix2 p k) * x1 (ix2 k q) := by
  unfold k2_pay1
  simp only [matmul]
  rw [Ideal.matmul_constant_zero_apply, ← Equiv.sum_comp (contrEquiv1 (dot_S10000x64_S64x16_S10000x16_1_0_0_1_n_n) 64 rfl rfl).symm]
  refine Finset.sum_congr rfl fun k _ => ?_
  have hk := contrEquiv1_symm_val (dot_S10000x64_S64x16_S10000x16_1_0_0_1_n_n) 64 rfl rfl k
  have el : (dot_S10000x64_S64x16_S10000x16_1_0_0_1_n_n).lhsIdx (ix2 p q) ((contrEquiv1 (dot_S10000x64_S64x16_S10000x16_1_0_0_1_n_n) 64 rfl rfl).symm k) = ix2 p k := funext fun a => Fin.ext (by
    match a with
    | ⟨0, _⟩ => exact d2_lhs0 _ _
    | ⟨1, _⟩ => exact (d2_lhs1 _ _).trans hk)
  have er : (dot_S10000x64_S64x16_S10000x16_1_0_0_1_n_n).rhsIdx (ix2 p q) ((contrEquiv1 (dot_S10000x64_S64x16_S10000x16_1_0_0_1_n_n) 64 rfl rfl).symm k) = ix2 k q := funext fun a => Fin.ext (by
    match a with
    | ⟨0, _⟩ => exact (d2_rhs0 _ _).trans hk
    | ⟨1, _⟩ => exact d2_rhs1 _ _)
  rw [truncf_apply, truncf_apply, shapeCast_self, el, er]

/-- The printed index maps over the ten grid points: the row blocks of the hidden features and of the result move with the
    point, the weights' one block stays. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the region finds. -/
theorem flushed_proj2 (c : Dev nD) (t : Fin cfg2.N) :
    (dat2 V c).flushed 2 t = ((cfg2.win 2).blk t).view.read (Elt Ideal)
      (proj16 (V c main_v42) (V c main_arg4) : Buf (Elt Ideal) ((cfg2.win 2).arr.view.loc (c.tc : Thread nD τ))) := by
  show (cfg2.win 2).cut (grid2.coords t) ((dat2 V c).after 2 t) = _
  rw [after2_2]
  unfold out2_2
  rw [View.canon_unit_zero zero_offsets2]
  simp only [View.ld_unit_zero (S := S10000x64) zero_offsets2, View.ld_unit_zero (S := S64x16) zero_offsets2]
  obtain ⟨e0, e1, e2, e3, e4, e5⟩ := index_maps2 t
  have ht : t.val < 10 := t.isLt
  funext j
  obtain ⟨p, q, rfl⟩ : ∃ (p : Fin 10000) (q : Fin 16), j = ix2 p q := ⟨j 0, j 1, eq_ix2 j⟩
  refine (block_product2 _ _ p q).trans ?_
  rw [View.read_apply]
  have hr : t.val * 10000 + p.val < 100000 := by have := p.isLt; omega
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 16 + 1 * q.val = q.val; omega
  rw [hemb]
  refine (Finset.sum_congr rfl fun k _ => ?_).trans (proj16_apply _ _ _ q).symm
  unfold iblk2
  rw [View.read_apply, View.read_apply]
  have h0 : ((cfg2.win 0).blk t).view.emb (ix2 p k) = ix2 (⟨t.val * 10000 + p.val, hr⟩ : Fin 100000) k := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have h1 : ((cfg2.win 1).blk t).view.emb (ix2 k q) = ix2 k q := by
    funext a; apply Fin.ext
    match a with
    | ⟨0, _⟩ => show win2_1.index t (0 : Fin 2) * 64 + 1 * k.val = k.val; omega
    | ⟨1, _⟩ => show win2_1.index t (1 : Fin 2) * 16 + 1 * q.val = q.val; omega
  rw [h0, h1]
  rfl

/-- An index of the result array is in point `t`'s block iff each coordinate is in the block's range on its axis. -/
theorem mem_block2 (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v43).slice (win2_2.rect t)).set ↔ _
  rw [View.set_slice_whole, Rect.mem_set_unit]
  exact Iff.rfl

/-- The ten row blocks tile the result: row r lies in the block of point r / 10000. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  let t : Fin cfg2.N := ⟨(i 0).val / 10000, by show (i 0).val / 10000 < 10; omega⟩
  obtain ⟨e0, e1, e2, e3, e4, e5⟩ := index_maps2 t
  have htv : t.val = (i 0).val / 10000 := rfl
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- After the region the result array is the whole product of the two arrays the region found. -/
theorem region2_result (c : Dev nD) :
    (dat2 V c).arrAt 2 cfg2.N = (proj16 (V c main_v42) (V c main_arg4) : Buf (Elt Ideal) ((cfg2.win 2).arr.view.loc (c.tc : Thread nD τ))) :=
  (dat2 V c).arrAt_eq_of_cover 2 _ (fun t _ => flushed_proj2 V c t) cover2

end Cert.KernelIdeal.Hand

end
-- ==== Proof.RegionLogSoftmax.lean ====
/-
  The bias and row-wise log-softmax of the second layer, region by region: at each of its fifty grid points the pipelined
  kernel takes a block of 2000 rows of the aggregated logits, adds the bias row, subtracts each row's largest entry, and
  subtracts the logarithm of the row's sum of exponentials; the blocks tile the [100000, 16] result, so after the region
  the result array is the row-wise log-softmax of the biased logits, in that shifted form.
-/
import proofs.«165960_j16389595201742_2_alg».proof.Proof.Gen.KernelIdeal.Frame
import proofs.«165960_j16389595201742_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem zero_offsets3 : (![0, 0] : Fin 2 → Nat) = fun _ => 0 := funext fun a => by fin_cases a <;> rfl

/-- A vector of length a recast as a column [a, 1] reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast along the lanes to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane maximum of a block's row: the fold of max from the value of the word of minus infinity over the row's sixteen entries. -/
theorem laneMax_apply (src : FVec Ideal S2000x16 .f32) (p : Fin 2000) :
    multiReduction .maximumf [1] S2000 src 0xFF800000#32 reduces_S2000x16_S2000 (.inl rfl) rfl (ix1 p)
      = (Finset.univ : Finset (Fin 16)).fold max (Ideal.ofBits .f32 0xFF800000#32) (fun k => src (ix2 p k)) := by
  refine (Ideal.multiReduction_maximumf_single src 0xFF800000#32 reduces_S2000x16_S2000 (.inl rfl) rfl (ix1 p)).trans ?_
  have hl : (src ∘ reduces_S2000x16_S2000.lift (ix1 p)) = fun k : Fin 16 => src (ix2 p k) :=
    funext fun k => congrArg src (funext fun a => Fin.ext (by
      match a with
      | ⟨0, _⟩ => rfl
      | ⟨1, _⟩ => rfl))
  rw [hl]
  rfl

/-- The lane sum of a block's row: the sum of the row's sixteen entries. -/
theorem laneSum_apply (src : FVec Ideal S2000x16 .f32) (p : Fin 2000) :
    multiReduction .add [1] S2000 src 0x00000000#32 reduces_S2000x16_S2000 (.inl rfl) rfl (ix1 p)
      = ∑ k : Fin 16, src (ix2 p k) := by
  refine (Ideal.multiReduction_add_single src 0x00000000#32 reduces_S2000x16_S2000 (.inl rfl) rfl (ix1 p)).trans ?_
  refine Finset.sum_congr rfl fun k _ => congrArg src (funext fun a => Fin.ext (by
    match a with
    | ⟨0, _⟩ => rfl
    | ⟨1, _⟩ => rfl))

/-- The body after the bias is added, as one function of the biased block: subtract each row's lane maximum, then
    the logarithm of the row's lane sum of exponentials. -/
def shiftedLogNorm (Z : FVec Ideal S2000x16 .f32) : FVec Ideal S2000x16 .f32 :=
  subf
    (subf Z (broadcastTo S2000x16 (shapeCast S2000x1 (multiReduction .maximumf [1] S2000 Z 0xFF800000#32 reduces_S2000x16_S2000 (.inl rfl) rfl) shapeCasts_S2000_S2000x1) broadcasts_S2000x1_S2000x16))
    (broadcastTo S2000x16 (Idealize.ShloMosaic.log (shapeCast S2000x1 (multiReduction .add [1] S2000 (Idealize.ShloMosaic.exp (subf Z (broadcastTo S2000x16 (shapeCast S2000x1 (multiReduction .maximumf [1] S2000 Z 0xFF800000#32 reduces_S2000x16_S2000 (.inl rfl) rfl) shapeCasts_S2000_S2000x1) broadcasts_S2000x1_S2000x16))) 0x00000000#32 reduces_S2000x16_S2000 (.inl rfl) rfl) shapeCasts_S2000_S2000x1)) broadcasts_S2000x1_S2000x16)

theorem shiftedLogNorm_apply (Z : FVec Ideal S2000x16 .f32) (p : Fin 2000) (q : Fin 16) :
    shiftedLogNorm Z (ix2 p q)
      = (Z (ix2 p q) - (Finset.univ : Finset (Fin 16)).fold max (Ideal.ofBits .f32 0xFF800000#32) (fun k => Z (ix2 p k)))
        - Ideal.log (∑ k : Fin 16, Ideal.exp (Z (ix2 p k) - (Finset.univ : Finset (Fin 16)).fold max (Ideal.ofBits .f32 0xFF800000#32) (fun k => Z (ix2 p k)))) := by
  have hM : ∀ c : Fin 16, broadcastTo S2000x16 (shapeCast S2000x1 (multiReduction .maximumf [1] S2000 Z 0xFF800000#32 reduces_S2000x16_S2000 (.inl rfl) rfl) shapeCasts_S2000_S2000x1) broadcasts_S2000x1_S2000x16 (ix2 p c)
      = (Finset.univ : Finset (Fin 16)).fold max (Ideal.ofBits .f32 0xFF800000#32) (fun k => Z (ix2 p k)) := by
    intro c
    refine (broadcastTo_a1_ab_apply _ _ p c).trans ?_
    refine (shapeCast_a_a1_apply _ _ p (0 : Fin 1)).trans ?_
    exact laneMax_apply Z p
  unfold shiftedLogNorm
  rw [subf_apply, subf_apply, hM q]
  refine congrArg (fun y => (Z (ix2 p q) - (Finset.univ : Finset (Fin 16)).fold max (Ideal.ofBits .f32 0xFF800000#32) (fun k => Z (ix2 p k))) - y) ?_
  refine (broadcastTo_a1_ab_apply _ _ p q).trans ?_
  show Ideal.log (shapeCast S2000x1 _ shapeCasts_S2000_S2000x1 (ix2 p (0 : Fin 1))) = _
  refine congrArg Ideal.log ?_
  refine (shapeCast_a_a1_apply _ _ p (0 : Fin 1)).trans ?_
  refine (laneSum_apply _ p).trans ?_
  refine Finset.sum_congr rfl fun k _ => ?_
  show Ideal.exp (subf Z _ (ix2 p k)) = _
  rw [subf_apply, hM k]

/-- The bias row added to every row of the block. -/
def biasedBlock (x0 : Vec Ideal S2000x16 .f32) (x1 : Vec Ideal S1x16 .f32) : FVec Ideal S2000x16 .f32 :=
  addf (shapeCast S2000x16 x0 shapeCasts_S2000x16_S2000x16)
    (broadcastTo S2000x16 (shapeCast S1x16 x1 shapeCasts_S1x16_S1x16) broadcasts_S1x16_S2000x16)

/-- The printed body IS the bias added to the block followed by that function. -/
theorem body_eq (x0 : Vec Ideal S2000x16 .f32) (x1 : Vec Ideal S1x16 .f32) :
    k3_pay1 x0 x1 = shiftedLogNorm (biasedBlock x0 x1) := rfl

/-- The bias added to the block, at entry (p, q). -/
theorem block_biased (x0 : Vec Ideal S2000x16 .f32) (x1 : Vec Ideal S1x16 .f32) (p : Fin 2000) (q : Fin 16) :
    biasedBlock x0 x1 (ix2 p q) = x0 (ix2 p q) + x1 (ix2 (0 : Fin 1) q) := by
  unfold biasedBlock
  rw [addf_apply, shapeCast_self, shapeCast_self, broadcastTo_1b_ab_apply]

/-- The printed index maps over the fifty grid points. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the log-softmax of the biased logits the region finds. -/
theorem flushed_logSoftmax (c : Dev nD) (t : Fin cfg3.N) :
    (dat3 V c).flushed 2 t = ((cfg3.win 2).blk t).view.read (Elt Ideal)
      (biasLogSoftmax (V c main_v56) (V c main_v57) : Buf (Elt Ideal) ((cfg3.win 2).arr.view.loc (c.tc : Thread nD τ))) := by
  show (cfg3.win 2).cut (grid3.coords t) ((dat3 V c).after 2 t) = _
  rw [after3_2]
  unfold out3_2
  rw [View.canon_unit_zero zero_offsets3]
  simp only [View.ld_unit_zero (S := S2000x16) zero_offsets3, View.ld_unit_zero (S := S1x16) zero_offsets3]
  obtain ⟨e0, e1, e2, e3, e4, e5⟩ := index_maps3 t
  have ht : t.val < 50 := t.isLt
  funext j
  obtain ⟨p, q, rfl⟩ : ∃ (p : Fin 2000) (q : Fin 16), j = ix2 p q := ⟨j 0, j 1, eq_ix2 j⟩
  rw [body_eq]
  refine (shiftedLogNorm_apply _ p q).trans ?_
  rw [View.read_apply]
  have hr : t.val * 2000 + p.val < 100000 := by have := p.isLt; omega
  have hemb : ((cfg3.win 2).blk t).view.emb (ix2 p q) = ix2 (⟨t.val * 2000 + p.val, hr⟩ : Fin 100000) q := by
    funext a; apply Fin.ext
    match a with
    | ⟨0, _⟩ => show win3_2.index t (0 : Fin 2) * 2000 + 1 * p.val = t.val * 2000 + p.val; omega
    | ⟨1, _⟩ => show win3_2.index t (1 : Fin 2) * 16 + 1 * q.val = q.val; omega
  rw [hemb]
  refine Eq.trans ?_ (biasLogSoftmax_apply _ _ _ q).symm
  -- every entry of the biased block is the biased logit of the array's row
  have hb : ∀ k : Fin 16, biasedBlock (iblk3 V c 0 t) (iblk3 V c 1 t) (ix2 p k)
      = biased16 (V c main_v56) (V c main_v57) (⟨t.val * 2000 + p.val, hr⟩ : Fin 100000) k := by
    intro k
    refine (block_biased _ _ p k).trans ?_
    unfold iblk3 biased16
    rw [View.read_apply, View.read_apply]
    have h0 : ((cfg3.win 0).blk t).view.emb (ix2 p k) = ix2 (⟨t.val * 2000 + p.val, hr⟩ : Fin 100000) k := by
      funext a; apply Fin.ext
      match a with
      | ⟨0, _⟩ => show win3_0.index t (0 : Fin 2) * 2000 + 1 * p.val = t.val * 2000 + p.val; omega
      | ⟨1, _⟩ => show win3_0.index t (1 : Fin 2) * 16 + 1 * k.val = k.val; omega
    have h1 : ((cfg3.win 1).blk t).view.emb (ix2 (0 : Fin 1) k) = ix2 (0 : Fin 1) k := by
      funext a; apply Fin.ext
      match a with
      | ⟨0, _⟩ => show win3_1.index t (0 : Fin 2) * 1 + 1 * 0 = 0; omega
      | ⟨1, _⟩ => show win3_1.index t (1 : Fin 2) * 16 + 1 * k.val = k.val; omega
    rw [h0, h1]
    rfl
  have hmax : (Finset.univ : Finset (Fin 16)).fold max (Ideal.ofBits .f32 0xFF800000#32)
      (fun k => biasedBlock (iblk3 V c 0 t) (iblk3 V c 1 t) (ix2 p k))
      = rowMax (V c main_v56) (V c main_v57) (⟨t.val * 2000 + p.val, hr⟩ : Fin 100000) := by
    unfold rowMax
    have hfun : (fun k : Fin 16 => biasedBlock (iblk3 V c 0 t) (iblk3 V c 1 t) (ix2 p k))
        = fun k => biased16 (V c main_v56) (V c main_v57) (⟨t.val * 2000 + p.val, hr⟩ : Fin 100000) k := funext hb
    rw [hfun]
  rw [hmax, hb q]
  refine congrArg (fun y => (biased16 (V c main_v56) (V c main_v57) (⟨t.val * 2000 + p.val, hr⟩ : Fin 100000) q - rowMax (V c main_v56) (V c main_v57) (⟨t.val * 2000 + p.val, hr⟩ : Fin 100000)) - Ideal.log y) ?_
  exact Finset.sum_congr rfl fun k _ => by rw [hb k]

/-- An index of the result array is in point `t`'s block iff each coordinate is in the block's range on its axis. -/
theorem mem_block3 (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v58).slice (win3_2.rect t)).set ↔ _
  rw [View.set_slice_whole, Rect.mem_set_unit]
  exact Iff.rfl

/-- The fifty row blocks tile the result: row r lies in the block of point r / 2000. -/
theorem cover3 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  let t : Fin cfg3.N := ⟨(i 0).val / 2000, by show (i 0).val / 2000 < 50; omega⟩
  obtain ⟨e0, e1, e2, e3, e4, e5⟩ := index_maps3 t
  have htv : t.val = (i 0).val / 2000 := rfl
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 16 ≤ (i 1).val ∧ (i 1).val < win3_2.index t (1 : Fin 2) * 16 + 16; omega

/-- After the region the result array is the row-wise log-softmax of the biased logits the region found. -/
theorem region3_result (c : Dev nD) :
    (dat3 V c).arrAt 2 cfg3.N = (biasLogSoftmax (V c main_v56) (V c main_v57) : Buf (Elt Ideal) ((cfg3.win 2).arr.view.loc (c.tc : Thread nD τ))) :=
  (dat3 V c).arrAt_eq_of_cover 2 _ (fun t _ => flushed_logSoftmax V c t) cover3

end Cert.KernelIdeal.Hand

end
-- ==== Proof.RefDense.lean ====
/-
  The reference's dense steps read entry by entry: its two whole-array matrix products are the projections; its bias
  (a vector made a row, the row repeated down the array) followed by the maximum with the zero splat is the biased positive
  part; and its log-softmax (the biased logits, the row maximum taken once more against minus infinity, the shift, the
  exponentials' row sum from zero, its logarithm, the second shift) is the biased log-softmax.  The maximum of minus
  infinity with a fold of max that starts from minus infinity is that fold, and zero plus a sum is the sum.
-/
import proofs.«165960_j16389595201742_2_alg».proof.Proof.Gen.ReferenceIdeal
import proofs.«165960_j16389595201742_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Finset.Fold

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.Spec

theorem ref_proj64_lhs0 (i : S100000x64.Idx) (q : (dot_S100000x64_S64x64_S100000x64_1_0_0_1_n_n).contr.Idx) : ((dot_S100000x64_S64x64_S100000x64_1_0_0_1_n_n).lhsIdx i q 0).val = (i 0).val := by
  unfold DotDims.lhsIdx
  rw [dif_neg (show ¬(0 : Fin S100000x64.rank) ∈ (dot_S100000x64_S64x64_S100000x64_1_0_0_1_n_n).lhsBatch by decide), dif_pos (show (0 : Fin S100000x64.rank) ∈ (dot_S100000x64_S64x64_S100000x64_1_0_0_1_n_n).lhsNonContracting by decide)]
  rfl
theorem ref_proj64_lhs1 (i : S100000x64.Idx) (q : (dot_S100000x64_S64x64_S100000x64_1_0_0_1_n_n).contr.Idx) : ((dot_S100000x64_S64x64_S100000x64_1_0_0_1_n_n).lhsIdx i q 1).val = (q ⟨0, by decide⟩).val :=
  (dot_S100000x64_S64x64_S100000x64_1_0_0_1_n_n).lhsIdx_val_of_single rfl i q
theorem ref_proj64_rhs0 (i : S100000x64.Idx) (q : (dot_S100000x64_S64x64_S100000x64_1_0_0_1_n_n).contr.Idx) : ((dot_S100000x64_S64x64_S100000x64_1_0_0_1_n_n).rhsIdx i q 0).val = (q ⟨0, by decide⟩).val :=
  (dot_S100000x64_S64x64_S100000x64_1_0_0_1_n_n).rhsIdx_val_of_single rfl i q
theorem ref_proj64_rhs1 (i : S100000x64.Idx) (q : (dot_S100000x64_S64x64_S100000x64_1_0_0_1_n_n).contr.Idx) : ((dot_S100000x64_S64x64_S100000x64_1_0_0_1_n_n).rhsIdx i q 1).val = (i 1).val := by
  unfold DotDims.rhsIdx
  rw [dif_neg (show ¬(1 : Fin S64x64.rank) ∈ (dot_S100000x64_S64x64_S100000x64_1_0_0_1_n_n).rhsBatch by decide), dif_pos (show (1 : Fin S64x64.rank) ∈ (dot_S100000x64_S64x64_S100000x64_1_0_0_1_n_n).rhsNonContracting by decide)]
  rfl

/-- The host's matrix product of the whole arrays is the projection, entry by entry. -/
theorem ref_proj64 (x : FVec Ideal S100000x64 .f32) (w : FVec Ideal S64x64 .f32) :
    Host.dotGeneral (F := Ideal) (dot_S100000x64_S64x64_S100000x64_1_0_0_1_n_n) none x w = proj64 x w := by
  funext i
  obtain ⟨r, q, rfl⟩ : ∃ (r : Fin 100000) (q : Fin 64), i = ix2 r q := ⟨i 0, i 1, eq_ix2 i⟩
  simp only [Host.dotGeneral]
  rw [Ideal.dotGeneral_apply, ← Equiv.sum_comp (contrEquiv1 (dot_S100000x64_S64x64_S100000x64_1_0_0_1_n_n) 64 rfl rfl).symm]
  refine (Finset.sum_congr rfl fun k _ => ?_).trans (proj64_apply x w r q).symm
  have hk := contrEquiv1_symm_val (dot_S100000x64_S64x64_S100000x64_1_0_0_1_n_n) 64 rfl rfl k
  have el : (dot_S100000x64_S64x64_S100000x64_1_0_0_1_n_n).lhsIdx (ix2 r q) ((contrEquiv1 (dot_S100000x64_S64x64_S100000x64_1_0_0_1_n_n) 64 rfl rfl).symm k) = ix2 r k := funext fun a => Fin.ext (by
    match a with
    | ⟨0, _⟩ => exact ref_proj64_lhs0 _ _
    | ⟨1, _⟩ => exact (ref_proj64_lhs1 _ _).trans hk)
  have er : (dot_S100000x64_S64x64_S100000x64_1_0_0_1_n_n).rhsIdx (ix2 r q) ((contrEquiv1 (dot_S100000x64_S64x64_S100000x64_1_0_0_1_n_n) 64 rfl rfl).symm k) = ix2 k q := funext fun a => Fin.ext (by
    match a with
    | ⟨0, _⟩ => exact (ref_proj64_rhs0 _ _).trans hk
    | ⟨1, _⟩ => exact ref_proj64_rhs1 _ _)
  rw [el, er]

theorem ref_proj16_lhs0 (i : S100000x16.Idx) (q : (dot_S100000x64_S64x16_S100000x16_1_0_0_1_n_n).contr.Idx) : ((dot_S100000x64_S64x16_S100000x16_1_0_0_1_n_n).lhsIdx i q 0).val = (i 0).val := by
  unfold DotDims.lhsIdx
  rw [dif_neg (show ¬(0 : Fin S100000x64.rank) ∈ (dot_S100000x64_S64x16_S100000x16_1_0_0_1_n_n).lhsBatch by decide), dif_pos (show (0 : Fin S100000x64.rank) ∈ (dot_S100000x64_S64x16_S100000x16_1_0_0_1_n_n).lhsNonContracting by decide)]
  rfl
theorem ref_proj16_lhs1 (i : S100000x16.Idx) (q : (dot_S100000x64_S64x16_S100000x16_1_0_0_1_n_n).contr.Idx) : ((dot_S100000x64_S64x16_S100000x16_1_0_0_1_n_n).lhsIdx i q 1).val = (q ⟨0, by decide⟩).val :=
  (dot_S100000x64_S64x16_S100000x16_1_0_0_1_n_n).lhsIdx_val_of_single rfl i q
theorem ref_proj16_rhs0 (i : S100000x16.Idx) (q : (dot_S100000x64_S64x16_S100000x16_1_0_0_1_n_n).contr.Idx) : ((dot_S100000x64_S64x16_S100000x16_1_0_0_1_n_n).rhsIdx i q 0).val = (q ⟨0, by decide⟩).val :=
  (dot_S100000x64_S64x16_S100000x16_1_0_0_1_n_n).rhsIdx_val_of_single rfl i q
theorem ref_proj16_rhs1 (i : S100000x16.Idx) (q : (dot_S100000x64_S64x16_S100000x16_1_0_0_1_n_n).contr.Idx) : ((dot_S100000x64_S64x16_S100000x16_1_0_0_1_n_n).rhsIdx i q 1).val = (i 1).val := by
  unfold DotDims.rhsIdx
  rw [dif_neg (show ¬(1 : Fin S64x16.rank) ∈ (dot_S100000x64_S64x16_S100000x16_1_0_0_1_n_n).rhsBatch by decide), dif_pos (show (1 : Fin S64x16.rank) ∈ (dot_S100000x64_S64x16_S100000x16_1_0_0_1_n_n).rhsNonContracting by decide)]
  rfl

/-- The host's matrix product of the whole arrays is the projection, entry by entry. -/
theorem ref_proj16 (x : FVec Ideal S100000x64 .f32) (w : FVec Ideal S64x16 .f32) :
    Host.dotGeneral (F := Ideal) (dot_S100000x64_S64x16_S100000x16_1_0_0_1_n_n) none x w = proj16 x w := by
  funext i
  obtain ⟨r, q, rfl⟩ : ∃ (r : Fin 100000) (q : Fin 16), i = ix2 r q := ⟨i 0, i 1, eq_ix2 i⟩
  simp only [Host.dotGeneral]
  rw [Ideal.dotGeneral_apply, ← Equiv.sum_comp (contrEquiv1 (dot_S100000x64_S64x16_S100000x16_1_0_0_1_n_n) 64 rfl rfl).symm]
  refine (Finset.sum_congr rfl fun k _ => ?_).trans (proj16_apply x w r q).symm
  have hk := contrEquiv1_symm_val (dot_S100000x64_S64x16_S100000x16_1_0_0_1_n_n) 64 rfl rfl k
  have el : (dot_S100000x64_S64x16_S100000x16_1_0_0_1_n_n).lhsIdx (ix2 r q) ((contrEquiv1 (dot_S100000x64_S64x16_S100000x16_1_0_0_1_n_n) 64 rfl rfl).symm k) = ix2 r k := funext fun a => Fin.ext (by
    match a with
    | ⟨0, _⟩ => exact ref_proj16_lhs0 _ _
    | ⟨1, _⟩ => exact (ref_proj16_lhs1 _ _).trans hk)
  have er : (dot_S100000x64_S64x16_S100000x16_1_0_0_1_n_n).rhsIdx (ix2 r q) ((contrEquiv1 (dot_S100000x64_S64x16_S100000x16_1_0_0_1_n_n) 64 rfl rfl).symm k) = ix2 k q := funext fun a => Fin.ext (by
    match a with
    | ⟨0, _⟩ => exact (ref_proj16_rhs0 _ _).trans hk
    | ⟨1, _⟩ => exact ref_proj16_rhs1 _ _)
  rw [el, er]

/-- A bias vector made a row and repeated down the 100000 rows reads, at (r, q), the row at (0, q). -/
theorem rows_of_row64 (b : FVec Ideal S1x64 .f32) (r : Fin 100000) (q : Fin 64) :
    broadcastInDim S100000x64 ![0, 1] bcast_S1x64_S100000x64_0_1 b (ix2 r q) = b (ix2 (0 : Fin 1) q) :=
  broadcastInDim_apply _ bcast_S1x64_S100000x64_0_1 b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

theorem rows_of_row16 (b : FVec Ideal S1x16 .f32) (r : Fin 100000) (q : Fin 16) :
    broadcastInDim S100000x16 ![0, 1] bcast_S1x16_S100000x16_0_1 b (ix2 r q) = b (ix2 (0 : Fin 1) q) :=
  broadcastInDim_apply _ bcast_S1x16_S100000x16_0_1 b (ix2 r q) (ix2 (0 : Fin 1) q) (fun a => match a with
    | ⟨0, _⟩ => by show 0 = if (1 : Nat) = 1 then 0 else r.val; rw [if_pos rfl]
    | ⟨1, _⟩ => by show q.val = if (16 : Nat) = 1 then 0 else q.val; rw [if_neg (by decide)])

/-- The reference's bias and positive part, as one function of the aggregated features and the bias row. -/
def refBiasRelu (a : FVec Ideal S100000x64 .f32) (b : FVec Ideal S1x64 .f32) : FVec Ideal S100000x64 .f32 :=
  maximumf (addf a (broadcastInDim S100000x64 ![0, 1] bcast_S1x64_S100000x64_0_1 b))
    (broadcastInDim S100000x64 ![] bcast_S_S100000x64 (constant (F := Ideal) S_ .f32 0x00000000#32))

theorem refBiasRelu_eq (a : FVec Ideal S100000x64 .f32) (b : FVec Ideal S1x64 .f32) : refBiasRelu a b = biasRelu a b := by
  funext i
  obtain ⟨r, q, rfl⟩ : ∃ (r : Fin 100000) (q : Fin 64), i = ix2 r q := ⟨i 0, i 1, eq_ix2 i⟩
  unfold refBiasRelu
  rw [maximumf_apply, addf_apply, rows_of_row64, biasRelu_apply]
  rfl

/-- A vector of 100000 row values made a column reads, at (r, 0), the vector at r. -/
theorem column_of (v : FVec Ideal S100000 .f32) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A column repeated along the sixteen lanes reads, at (r, q), the column at (r, 0). -/
theorem lanes_of_column (v : FVec Ideal S100000x1 .f32) (r : Fin 100000) (q : Fin 16) :
    broadcastInDim S100000x16 ![0, 1] bcast_S100000x1_S100000x16_0_1 v (ix2 r q) = v (ix2 r (0 : Fin 1)) :=
  broadcastInDim_apply _ bcast_S100000x1_S100000x16_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

theorem reduces_rows : S100000x16.Reduces [1] S100000 := by decide

/-- The host's logarithm and exponential of an array, read at an entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The host's row maximum: the fold of max from the value of the word of minus infinity over the row's sixteen entries. -/
theorem hostRowMax_apply (Z : FVec Ideal S100000x16 .f32) (r : Fin 100000) :
    Host.reduce FloatOps.maximumf Z (constant (F := Ideal) S_ .f32 0xFF800000#32) reducesTo_S100000x16_S100000_d1 h_S_ (ix1 r)
      = (Finset.univ : Finset (Fin 16)).fold max (Ideal.ofBits .f32 0xFF800000#32) (fun k => Z (ix2 r k)) := by
  rw [Host.reduce_eq_fold_single FloatOps.maximumf Z _ reducesTo_S100000x16_S100000_d1 reduces_rows h_S_ (ix1 r)]
  have hl : (Z ∘ reduces_rows.lift (ix1 r)) = fun k : Fin 16 => Z (ix2 r k) :=
    funext fun k => congrArg Z (funext fun a => Fin.ext (by
      match a with
      | ⟨0, _⟩ => rfl
      | ⟨1, _⟩ => rfl))
  rw [hl]
  rfl

/-- The host's row sum from zero: the sum of the row's sixteen entries. -/
theorem hostRowSum_apply (Y : FVec Ideal S100000x16 .f32) (r : Fin 100000) :
    Host.reduceAdd Y (constant (F := Ideal) S_ .f32 0x00000000#32) reducesTo_S100000x16_S100000_d1 h_S_ (ix1 r)
      = ∑ k : Fin 16, Y (ix2 r k) := by
  simp only [Host.reduceAdd, Ideal.hostReduceAdd_def]
  rw [Ideal.hostReduceAdd_single reducesTo_S100000x16_S100000_d1 reduces_rows]
  show Ideal.ofBits .f32 0x00000000#32 + _ = _
  rw [Ideal.ofBits_zero_f32, zero_add]
  exact Finset.sum_congr rfl fun k _ => congrArg Y (funext fun a => Fin.ext (by
    match a with
    | ⟨0, _⟩ => rfl
    | ⟨1, _⟩ => rfl))

/-- The reference's log-softmax after the bias is added, as one function of the biased logits: the row maximum, taken once
    more against the splat of minus infinity, made a column and repeated along the lanes; the shift; the exponentials' row
    sum, its logarithm, made a column and repeated; the second shift. -/
def refShiftedLogNorm (Z : FVec Ideal S100000x16 .f32) : FVec Ideal S100000x16 .f32 :=
  subf
    (subf Z (broadcastInDim S100000x16 ![0, 1] bcast_S100000x1_S100000x16_0_1 (broadcastInDim S100000x1 ![0] bcast_S100000_S100000x1_0
      (maximumf (broadcastInDim S100000 ![] bcast_S_S100000 (constant (F := Ideal) S_ .f32 0xFF800000#32))
        (Host.reduce FloatOps.maximumf Z (constant (F := Ideal) S_ .f32 0xFF800000#32) reducesTo_S100000x16_S100000_d1 h_S_)))))
    (broadcastInDim S100000x16 ![0, 1] bcast_S100000x1_S100000x16_0_1 (Host.log (broadcastInDim S100000x1 ![0] bcast_S100000_S100000x1_0
      (Host.reduceAdd (Host.exp (subf Z (broadcastInDim S100000x16 ![0, 1] bcast_S100000x1_S100000x16_0_1 (broadcastInDim S100000x1 ![0] bcast_S100000_S100000x1_0
        (maximumf (broadcastInDim S100000 ![] bcast_S_S100000 (constant (F := Ideal) S_ .f32 0xFF800000#32))
          (Host.reduce FloatOps.maximumf Z (constant (F := Ideal) S_ .f32 0xFF800000#32) reducesTo_S100000x16_S100000_d1 h_S_))))))
        (constant (F := Ideal) S_ .f32 0x00000000#32) reducesTo_S100000x16_S100000_d1 h_S_))))

theorem refShiftedLogNorm_apply (Z : FVec Ideal S100000x16 .f32) (r : Fin 100000) (q : Fin 16) :
    refShiftedLogNorm Z (ix2 r q)
      = (Z (ix2 r q) - (Finset.univ : Finset (Fin 16)).fold max (Ideal.ofBits .f32 0xFF800000#32) (fun k => Z (ix2 r k)))
        - Ideal.log (∑ k : Fin 16, Ideal.exp (Z (ix2 r k) - (Finset.univ : Finset (Fin 16)).fold max (Ideal.ofBits .f32 0xFF800000#32) (fun k => Z (ix2 r k)))) := by
  have hM : ∀ c : Fin 16, broadcastInDim S100000x16 ![0, 1] bcast_S100000x1_S100000x16_0_1 (broadcastInDim S100000x1 ![0] bcast_S100000_S100000x1_0
      (maximumf (broadcastInDim S100000 ![] bcast_S_S100000 (constant (F := Ideal) S_ .f32 0xFF800000#32))
        (Host.reduce FloatOps.maximumf Z (constant (F := Ideal) S_ .f32 0xFF800000#32) reducesTo_S100000x16_S100000_d1 h_S_))) (ix2 r c)
      = (Finset.univ : Finset (Fin 16)).fold max (Ideal.ofBits .f32 0xFF800000#32) (fun k => Z (ix2 r k)) := by
    intro c
    refine (lanes_of_column _ r c).trans ?_
    refine (column_of _ r (0 : Fin 1)).trans ?_
    rw [maximumf_apply, hostRowMax_apply]
    exact max_eq_right ((Finset.le_fold_max _).mpr (Or.inl le_rfl))
  unfold refShiftedLogNorm
  rw [subf_apply, subf_apply, hM q]
  refine congrArg (fun y => (Z (ix2 r q) - (Finset.univ : Finset (Fin 16)).fold max (Ideal.ofBits .f32 0xFF800000#32) (fun k => Z (ix2 r k))) - y) ?_
  refine (lanes_of_column _ r q).trans ?_
  refine (hostLog_apply _ _).trans ?_
  refine congrArg Ideal.log ?_
  refine (column_of _ r (0 : Fin 1)).trans ?_
  refine (hostRowSum_apply _ r).trans ?_
  refine Finset.sum_congr rfl fun k _ => ?_
  refine (hostExp_apply _ _).trans ?_
  rw [subf_apply, hM k]

/-- The reference's bias and log-softmax, as one function of the aggregated logits and the bias row. -/
def refBiasLogSoftmax (a : FVec Ideal S100000x16 .f32) (b : FVec Ideal S1x16 .f32) : FVec Ideal S100000x16 .f32 :=
  refShiftedLogNorm (addf a (broadcastInDim S100000x16 ![0, 1] bcast_S1x16_S100000x16_0_1 b))

theorem refBiasLogSoftmax_eq (a : FVec Ideal S100000x16 .f32) (b : FVec Ideal S1x16 .f32) :
    refBiasLogSoftmax a b = biasLogSoftmax a b := by
  funext i
  obtain ⟨r, q, rfl⟩ : ∃ (r : Fin 100000) (q : Fin 16), i = ix2 r q := ⟨i 0, i 1, eq_ix2 i⟩
  unfold refBiasLogSoftmax
  rw [refShiftedLogNorm_apply, biasLogSoftmax_apply]
  have hb : ∀ k : Fin 16, addf a (broadcastInDim S100000x16 ![0, 1] bcast_S1x16_S100000x16_0_1 b) (ix2 r k) = biased16 a b r k := by
    intro k
    rw [addf_apply, rows_of_row16]
    rfl
  have hfun : (fun k : Fin 16 => addf a (broadcastInDim S100000x16 ![0, 1] bcast_S1x16_S100000x16_0_1 b) (ix2 r k)) = fun k => biased16 a b r k := funext hb
  rw [hfun, hb q]
  have hmax : (Finset.univ : Finset (Fin 16)).fold max (Ideal.ofBits .f32 0xFF800000#32) (fun k => biased16 a b r k) = rowMax a b r := rfl
  rw [hmax]
  refine congrArg (fun y => (biased16 a b r q - rowMax a b r) - Ideal.log y) ?_
  exact Finset.sum_congr rfl fun k _ => by rw [hb k]

end Cert.ReferenceIdeal.Hand

end
-- ==== Proof.Stretches.lean ====
/-
  The two programs stretch by stretch.

  The idealized kernel is seven segments: host operations (the edge lists with the self-loops appended, the degrees, the
  per-edge normalization), the first projection (a pipelined region), host operations (gather by source node, scale,
  sum into the destination node), the bias and positive part (a region), the second projection (a region), host
  operations (the same aggregation, 16 wide), the bias and log-softmax (a region).  The reference is one list of 91 host
  operations, cut here at the same places.  Each lemma reads one stretch from arbitrary buffer contents: the host
  stretches of the two programs are the same operations, so from equal operands they leave equal arrays; the reference's
  dense stretches leave its matrix products, its biased positive part and its biased log-softmax; and every stretch leaves
  the buffers it does not write as they were.
-/
import proofs.«165960_j16389595201742_2_alg».proof.Proof.KernelRun
import proofs.«165960_j16389595201742_2_alg».proof.Proof.RegionProj1
import proofs.«165960_j16389595201742_2_alg».proof.Proof.RegionBiasRelu
import proofs.«165960_j16389595201742_2_alg».proof.Proof.RegionProj2
import proofs.«165960_j16389595201742_2_alg».proof.Proof.RegionLogSoftmax
import proofs.«165960_j16389595201742_2_alg».proof.Proof.RefRun
import proofs.«165960_j16389595201742_2_alg».proof.Proof.RefDense

set_option maxRecDepth 16384

noncomputable section

namespace Cert.Stages

open Idealize.ShloMosaic Idealize.ShloMosaic.TcCoe Idealize.SL.Sem Idealize.ShloMosaic.ValueIdx Idealize.ShloMosaic.StableHlo
open Cert.Spec

/-- The operations of two lists in a row act one list after the other. -/
theorem after_append {τ : Topo} {sig : RefSig} {Val : EltTy → Type} (l1 l2 : List (HloOp τ sig Val)) (V : Valuation τ sig Val) :
    after (l1 ++ l2) V = after l2 (after l1 V) := by
  induction l1 generalizing V with
  | nil => rfl
  | cons op l ih => simp only [List.cons_append, after_cons, ih]

/-- `n` of the reference's operations from position `a` on. -/
abbrev rseg (a n : Nat) : List (HloOp Cert.ReferenceIdeal.τ Cert.ReferenceIdeal.sig (Elt Ideal)) :=
  ((Cert.ReferenceIdeal.ValueP.ops (F := Ideal)).drop a).take n

/-- The reference's 91 operations cut where the kernel's segments end. -/
theorem ref_ops_cut : Cert.ReferenceIdeal.ValueP.ops (F := Ideal)
    = rseg 0 33 ++ (rseg 33 1 ++ (rseg 34 16 ++ (rseg 50 6 ++ (rseg 56 1 ++ (rseg 57 16 ++ rseg 73 18))))) := by
  simp only [rseg, Cert.ReferenceIdeal.ValueP.ops, List.drop_succ_cons, List.drop_zero, List.take_succ_cons, List.take_zero,
    List.cons_append, List.nil_append]

/-- Reads a buffer after one stretch of the reference's operations. -/
macro "ref_read" : tactic =>
  `(tactic| (simp only [rseg, Cert.ReferenceIdeal.ValueP.ops, List.drop_succ_cons, List.drop_zero, List.take_succ_cons, List.take_zero]
             after_results))

/-- A value moved to a buffer's own type and back is the value. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

section Stretches

variable (X : Valuation Cert.KernelIdeal.τ Cert.KernelIdeal.sig (Elt Ideal))
variable (Y : Valuation Cert.ReferenceIdeal.τ Cert.ReferenceIdeal.sig (Elt Ideal))

/-! ## The first stretch: edge lists, degrees, normalization -/

set_option maxHeartbeats 16000000 in
/-- From equal edge lists both programs build the same source and destination lists (self-loops appended) and the same
    per-edge normalization. -/
theorem stretchA (h1 : Y (Proc.devRef .tc Cert.ReferenceIdeal.main_arg1) = X (Proc.devRef .tc Cert.KernelIdeal.main_arg1)) :
    after Cert.KernelIdeal.Gen.hostOps0 X (Proc.devRef .tc Cert.KernelIdeal.main_v3) = after (rseg 0 33) Y (Proc.devRef .tc Cert.ReferenceIdeal.main_v3)
    ∧ after Cert.KernelIdeal.Gen.hostOps0 X (Proc.devRef .tc Cert.KernelIdeal.main_v6) = after (rseg 0 33) Y (Proc.devRef .tc Cert.ReferenceIdeal.main_v6)
    ∧ after Cert.KernelIdeal.Gen.hostOps0 X (Proc.devRef .tc Cert.KernelIdeal.main_v26) = after (rseg 0 33) Y (Proc.devRef .tc Cert.ReferenceIdeal.main_v26) := by
  refine ⟨?_, ?_, ?_⟩
  · dsimp only [Cert.KernelIdeal.Gen.hostOps0]
    ref_read
    rw [h1]
    rfl
  · dsimp only [Cert.KernelIdeal.Gen.hostOps0]
    ref_read
    rw [h1]
    rfl
  · dsimp only [Cert.KernelIdeal.Gen.hostOps0]
    ref_read
    rw [h1]
    rfl

/-- The first stretch writes no argument array (kernel). -/
theorem keepA_kernel :
    after Cert.KernelIdeal.Gen.hostOps0 X (Proc.devRef .tc Cert.KernelIdeal.main_arg0) = X (Proc.devRef .tc Cert.KernelIdeal.main_arg0)
    ∧ after Cert.KernelIdeal.Gen.hostOps0 X (Proc.devRef .tc Cert.KernelIdeal.main_arg2) = X (Proc.devRef .tc Cert.KernelIdeal.main_arg2)
    ∧ after Cert.KernelIdeal.Gen.hostOps0 X (Proc.devRef .tc Cert.KernelIdeal.main_arg3) = X (Proc.devRef .tc Cert.KernelIdeal.main_arg3)
    ∧ after Cert.KernelIdeal.Gen.hostOps0 X (Proc.devRef .tc Cert.KernelIdeal.main_arg4) = X (Proc.devRef .tc Cert.KernelIdeal.main_arg4)
    ∧ after Cert.KernelIdeal.Gen.hostOps0 X (Proc.devRef .tc Cert.KernelIdeal.main_arg5) = X (Proc.devRef .tc Cert.KernelIdeal.main_arg5) := by
  refine ⟨?_, ?_, ?_, ?_, ?_⟩ <;> (dsimp only [Cert.KernelIdeal.Gen.hostOps0]; after_results)

/-- The first stretch writes no argument array (reference). -/
theorem keepA_ref :
    after (rseg 0 33) Y (Proc.devRef .tc Cert.ReferenceIdeal.main_arg0) = Y (Proc.devRef .tc Cert.ReferenceIdeal.main_arg0)
    ∧ after (rseg 0 33) Y (Proc.devRef .tc Cert.ReferenceIdeal.main_arg2) = Y (Proc.devRef .tc Cert.ReferenceIdeal.main_arg2)
    ∧ after (rseg 0 33) Y (Proc.devRef .tc Cert.ReferenceIdeal.main_arg3) = Y (Proc.devRef .tc Cert.ReferenceIdeal.main_arg3)
    ∧ after (rseg 0 33) Y (Proc.devRef .tc Cert.ReferenceIdeal.main_arg4) = Y (Proc.devRef .tc Cert.ReferenceIdeal.main_arg4)
    ∧ after (rseg 0 33) Y (Proc.devRef .tc Cert.ReferenceIdeal.main_arg5) = Y (Proc.devRef .tc Cert.ReferenceIdeal.main_arg5) := by
  refine ⟨?_, ?_, ?_, ?_, ?_⟩ <;> ref_read

/-! ## The reference's first matrix product -/

theorem dot1_ref : after (rseg 33 1) Y (Proc.devRef .tc Cert.ReferenceIdeal.main_v27)
    = Host.dotGeneral (F := Ideal) (φ₁ := .f32) (φ₂ := .f32) Cert.ReferenceIdeal.dot_S100000x64_S64x64_S100000x64_1_0_0_1_n_n none
        (Y (Proc.devRef .tc Cert.ReferenceIdeal.main_arg0) : FVec Ideal Cert.ReferenceIdeal.S100000x64 .f32) (Y (Proc.devRef .tc Cert.ReferenceIdeal.main_arg2) : FVec Ideal Cert.ReferenceIdeal.S64x64 .f32) := by
  ref_read

theorem keep_dot1_ref :
    after (rseg 33 1) Y (Proc.devRef .tc Cert.ReferenceIdeal.main_v3) = Y (Proc.devRef .tc Cert.ReferenceIdeal.main_v3)
    ∧ after (rseg 33 1) Y (Proc.devRef .tc Cert.ReferenceIdeal.main_v6) = Y (Proc.devRef .tc Cert.ReferenceIdeal.main_v6)
    ∧ after (rseg 33 1) Y (Proc.devRef .tc Cert.ReferenceIdeal.main_v26) = Y (Proc.devRef .tc Cert.ReferenceIdeal.main_v26)
    ∧ after (rseg 33 1) Y (Proc.devRef .tc Cert.ReferenceIdeal.main_arg3) = Y (Proc.devRef .tc Cert.ReferenceIdeal.main_arg3)
    ∧ after (rseg 33 1) Y (Proc.devRef .tc Cert.ReferenceIdeal.main_arg4) = Y (Proc.devRef .tc Cert.ReferenceIdeal.main_arg4)
    ∧ after (rseg 33 1) Y (Proc.devRef .tc Cert.ReferenceIdeal.main_arg5) = Y (Proc.devRef .tc Cert.ReferenceIdeal.main_arg5) := by
  refine ⟨?_, ?_, ?_, ?_, ?_, ?_⟩ <;> ref_read

/-! ## The second stretch: the aggregation, 64 wide -/

set_option maxHeartbeats 16000000 in
/-- Gather by source node, scale by the normalization, sum into the destination node: the same operations on equal operands. -/
theorem stretchB (h27 : Y (Proc.devRef .tc Cert.ReferenceIdeal.main_v27) = X (Proc.devRef .tc Cert.KernelIdeal.main_v27)) (h3 : Y (Proc.devRef .tc Cert.ReferenceIdeal.main_v3) = X (Proc.devRef .tc Cert.KernelIdeal.main_v3))
    (h6 : Y (Proc.devRef .tc Cert.ReferenceIdeal.main_v6) = X (Proc.devRef .tc Cert.KernelIdeal.main_v6)) (h26 : Y (Proc.devRef .tc Cert.ReferenceIdeal.main_v26) = X (Proc.devRef .tc Cert.KernelIdeal.main_v26)) :
    after Cert.KernelIdeal.Gen.hostOps1 X (Proc.devRef .tc Cert.KernelIdeal.main_v40) = after (rseg 34 16) Y (Proc.devRef .tc Cert.ReferenceIdeal.main_v40) := by
  dsimp only [Cert.KernelIdeal.Gen.hostOps1]
  ref_read
  rw [h27, h3, h6, h26]
  rfl

/-- The kernel's bias row of the first layer is the bias vector, entry by entry. -/
theorem biasRowB_kernel (q : Fin 64) :
    (after Cert.KernelIdeal.Gen.hostOps1 X (Proc.devRef .tc Cert.KernelIdeal.main_v41) : (⟨2, ![1, 64]⟩ : Shape).Idx → EReal) (ix2 (0 : Fin 1) q)
      = (X (Proc.devRef .tc Cert.KernelIdeal.main_arg3) : (⟨1, ![64]⟩ : Shape).Idx → EReal) (ix1 q) := by
  dsimp only [Cert.KernelIdeal.Gen.hostOps1]
  after_results
  exact shapeCast_a_1a_apply _ _ (0 : Fin 1) q

theorem keepB_kernel :
    after Cert.KernelIdeal.Gen.hostOps1 X (Proc.devRef .tc Cert.KernelIdeal.main_v3) = X (Proc.devRef .tc Cert.KernelIdeal.main_v3)
    ∧ after Cert.KernelIdeal.Gen.hostOps1 X (Proc.devRef .tc Cert.KernelIdeal.main_v6) = X (Proc.devRef .tc Cert.KernelIdeal.main_v6)
    ∧ after Cert.KernelIdeal.Gen.hostOps1 X (Proc.devRef .tc Cert.KernelIdeal.main_v26) = X (Proc.devRef .tc Cert.KernelIdeal.main_v26)
    ∧ after Cert.KernelIdeal.Gen.hostOps1 X (Proc.devRef .tc Cert.KernelIdeal.main_arg4) = X (Proc.devRef .tc Cert.KernelIdeal.main_arg4)
    ∧ after Cert.KernelIdeal.Gen.hostOps1 X (Proc.devRef .tc Cert.KernelIdeal.main_arg5) = X (Proc.devRef .tc Cert.KernelIdeal.main_arg5) := by
  refine ⟨?_, ?_, ?_, ?_, ?_⟩ <;> (dsimp only [Cert.KernelIdeal.Gen.hostOps1]; after_results)

theorem keepB_ref :
    after (rseg 34 16) Y (Proc.devRef .tc Cert.ReferenceIdeal.main_v3) = Y (Proc.devRef .tc Cert.ReferenceIdeal.main_v3)
    ∧ after (rseg 34 16) Y (Proc.devRef .tc Cert.ReferenceIdeal.main_v6) = Y (Proc.devRef .tc Cert.ReferenceIdeal.main_v6)
    ∧ after (rseg 34 16) Y (Proc.devRef .tc Cert.ReferenceIdeal.main_v26) = Y (Proc.devRef .tc Cert.ReferenceIdeal.main_v26)
    ∧ after (rseg 34 16) Y (Proc.devRef .tc Cert.ReferenceIdeal.main_arg3) = Y (Proc.devRef .tc Cert.ReferenceIdeal.main_arg3)
    ∧ after (rseg 34 16) Y (Proc.devRef .tc Cert.ReferenceIdeal.main_arg4) = Y (Proc.devRef .tc Cert.ReferenceIdeal.main_arg4)
    ∧ after (rseg 34 16) Y (Proc.devRef .tc Cert.ReferenceIdeal.main_arg5) = Y (Proc.devRef .tc Cert.ReferenceIdeal.main_arg5) := by
  refine ⟨?_, ?_, ?_, ?_, ?_, ?_⟩ <;> ref_read

/-! ## The reference's bias and positive part -/

theorem relu_ref : after (rseg 50 6) Y (Proc.devRef .tc Cert.ReferenceIdeal.main_v44)
    = Cert.ReferenceIdeal.Hand.refBiasRelu (Y (Proc.devRef .tc Cert.ReferenceIdeal.main_v40))
        (broadcastInDim Cert.ReferenceIdeal.S1x64 ![1] Cert.ReferenceIdeal.Gen.bcast_S64_S1x64_1 (Y (Proc.devRef .tc Cert.ReferenceIdeal.main_arg3))) := by
  ref_read
  rfl

theorem keep_relu_ref :
    after (rseg 50 6) Y (Proc.devRef .tc Cert.ReferenceIdeal.main_v3) = Y (Proc.devRef .tc Cert.ReferenceIdeal.main_v3)
    ∧ after (rseg 50 6) Y (Proc.devRef .tc Cert.ReferenceIdeal.main_v6) = Y (Proc.devRef .tc Cert.ReferenceIdeal.main_v6)
    ∧ after (rseg 50 6) Y (Proc.devRef .tc Cert.ReferenceIdeal.main_v26) = Y (Proc.devRef .tc Cert.ReferenceIdeal.main_v26)
    ∧ after (rseg 50 6) Y (Proc.devRef .tc Cert.ReferenceIdeal.main_arg4) = Y (Proc.devRef .tc Cert.ReferenceIdeal.main_arg4)
    ∧ after (rseg 50 6) Y (Proc.devRef .tc Cert.ReferenceIdeal.main_arg5) = Y (Proc.devRef .tc Cert.ReferenceIdeal.main_arg5) := by
  refine ⟨?_, ?_, ?_, ?_, ?_⟩ <;> ref_read

/-! ## The reference's second matrix product -/

theorem dot2_ref : after (rseg 56 1) Y (Proc.devRef .tc Cert.ReferenceIdeal.main_v45)
    = Host.dotGeneral (F := Ideal) (φ₁ := .f32) (φ₂ := .f32) Cert.ReferenceIdeal.dot_S100000x64_S64x16_S100000x16_1_0_0_1_n_n none
        (Y (Proc.devRef .tc Cert.ReferenceIdeal.main_v44) : FVec Ideal Cert.ReferenceIdeal.S100000x64 .f32) (Y (Proc.devRef .tc Cert.ReferenceIdeal.main_arg4) : FVec Ideal Cert.ReferenceIdeal.S64x16 .f32) := by
  ref_read

theorem keep_dot2_ref :
    after (rseg 56 1) Y (Proc.devRef .tc Cert.ReferenceIdeal.main_v3) = Y (Proc.devRef .tc Cert.ReferenceIdeal.main_v3)
    ∧ after (rseg 56 1) Y (Proc.devRef .tc Cert.ReferenceIdeal.main_v6) = Y (Proc.devRef .tc Cert.ReferenceIdeal.main_v6)
    ∧ after (rseg 56 1) Y (Proc.devRef .tc Cert.ReferenceIdeal.main_v26) = Y (Proc.devRef .tc Cert.ReferenceIdeal.main_v26)
    ∧ after (rseg 56 1) Y (Proc.devRef .tc Cert.ReferenceIdeal.main_arg5) = Y (Proc.devRef .tc Cert.ReferenceIdeal.main_arg5) := by
  refine ⟨?_, ?_, ?_, ?_⟩ <;> ref_read

/-! ## The third stretch: the aggregation, 16 wide -/

set_option maxHeartbeats 16000000 in
/-- The same aggregation, 16 wide: the same operations on equal operands. -/
theorem stretchC (h45 : Y (Proc.devRef .tc Cert.ReferenceIdeal.main_v45) = X (Proc.devRef .tc Cert.KernelIdeal.main_v43)) (h3 : Y (Proc.devRef .tc Cert.ReferenceIdeal.main_v3) = X (Proc.devRef .tc Cert.KernelIdeal.main_v3))
    (h6 : Y (Proc.devRef .tc Cert.ReferenceIdeal.main_v6) = X (Proc.devRef .tc Cert.KernelIdeal.main_v6)) (h26 : Y (Proc.devRef .tc Cert.ReferenceIdeal.main_v26) = X (Proc.devRef .tc Cert.KernelIdeal.main_v26)) :
    after Cert.KernelIdeal.Gen.hostOps3 X (Proc.devRef .tc Cert.KernelIdeal.main_v56) = after (rseg 57 16) Y (Proc.devRef .tc Cert.ReferenceIdeal.main_v58) := by
  dsimp only [Cert.KernelIdeal.Gen.hostOps3]
  ref_read
  rw [h45, h3, h6, h26]
  rfl

/-- The kernel's bias row of the second layer is the bias vector, entry by entry. -/
theorem biasRowC_kernel (q : Fin 16) :
    (after Cert.KernelIdeal.Gen.hostOps3 X (Proc.devRef .tc Cert.KernelIdeal.main_v57) : (⟨2, ![1, 16]⟩ : Shape).Idx → EReal) (ix2 (0 : Fin 1) q)
      = (X (Proc.devRef .tc Cert.KernelIdeal.main_arg5) : (⟨1, ![16]⟩ : Shape).Idx → EReal) (ix1 q) := by
  dsimp only [Cert.KernelIdeal.Gen.hostOps3]
  after_results
  exact shapeCast_a_1a_apply _ _ (0 : Fin 1) q

theorem keepC_ref : after (rseg 57 16) Y (Proc.devRef .tc Cert.ReferenceIdeal.main_arg5) = Y (Proc.devRef .tc Cert.ReferenceIdeal.main_arg5) := by
  ref_read

/-! ## The reference's bias and log-softmax -/

set_option maxHeartbeats 16000000 in
theorem logSoftmax_ref : after (rseg 73 18) Y (Proc.devRef .tc Cert.ReferenceIdeal.main_v62)
    = Cert.ReferenceIdeal.Hand.refBiasLogSoftmax (Y (Proc.devRef .tc Cert.ReferenceIdeal.main_v58))
        (broadcastInDim Cert.ReferenceIdeal.S1x16 ![1] Cert.ReferenceIdeal.Gen.bcast_S16_S1x16_1 (Y (Proc.devRef .tc Cert.ReferenceIdeal.main_arg5))) := by
  ref_read
  simp only [ofBuf_toBuf]
  unfold Cert.ReferenceIdeal.Hand.refBiasLogSoftmax Cert.ReferenceIdeal.Hand.refShiftedLogNorm
  rfl

end Stretches

end Cert.Stages

end
-- ==== Proof.Stages.lean ====
/-
  The two programs' results are equal.

  Both programs are followed cut by cut from argument arrays that agree.  At each cut the buffers still to be read (the
  source and destination lists, the normalization, the arguments not yet used, and the latest dense result) hold the same
  arrays in both programs: a host stretch by the stretch lemmas, a region because its result array is the whole-array
  function of the arrays it found and the reference's matching operations compute the same function.  The kernel passes
  each bias as a vector recast to one row, the reference as the vector repeated into one row; the two rows have the same
  entries, which is all the specification reads of them.
-/
import proofs.«165960_j16389595201742_2_alg».proof.Proof.Stretches

set_option maxRecDepth 16384

noncomputable section

namespace Cert.Stages

open Idealize.ShloMosaic Idealize.ShloMosaic.TcCoe Idealize.SL.Sem Idealize.ShloMosaic.ValueIdx Idealize.ShloMosaic.StableHlo
open Cert.Spec

/-! ## The specification does not see the bias row beyond its entries -/

theorem biasRelu_congr {a a' : (⟨2, ![100000, 64]⟩ : Shape).Idx → EReal} {b b' : (⟨2, ![1, 64]⟩ : Shape).Idx → EReal}
    (ha : a = a') (hb : ∀ q : Fin 64, b (ix2 (0 : Fin 1) q) = b' (ix2 (0 : Fin 1) q)) : biasRelu a b = biasRelu a' b' := by
  subst ha
  funext i
  obtain ⟨r, q, rfl⟩ : ∃ (r : Fin 100000) (q : Fin 64), i = ix2 r q := ⟨i 0, i 1, eq_ix2 i⟩
  rw [biasRelu_apply, biasRelu_apply, hb q]

theorem biasLogSoftmax_congr {a a' : (⟨2, ![100000, 16]⟩ : Shape).Idx → EReal} {b b' : (⟨2, ![1, 16]⟩ : Shape).Idx → EReal}
    (ha : a = a') (hb : ∀ q : Fin 16, b (ix2 (0 : Fin 1) q) = b' (ix2 (0 : Fin 1) q)) : biasLogSoftmax a b = biasLogSoftmax a' b' := by
  subst ha
  have hz : ∀ (r : Fin 100000) (k : Fin 16), biased16 a b r k = biased16 a b' r k := fun r k => by
    unfold biased16; rw [hb k]
  have hm : ∀ r : Fin 100000, rowMax a b r = rowMax a b' r := fun r => by
    unfold rowMax
    rw [show (fun k : Fin 16 => biased16 a b r k) = fun k => biased16 a b' r k from funext (hz r)]
  funext i
  obtain ⟨r, q, rfl⟩ : ∃ (r : Fin 100000) (q : Fin 16), i = ix2 r q := ⟨i 0, i 1, eq_ix2 i⟩
  rw [biasLogSoftmax_apply, biasLogSoftmax_apply, hz r q, hm r]
  refine congrArg (fun y => (biased16 a b' r q - rowMax a b' r) - Ideal.log y) ?_
  exact Finset.sum_congr rfl fun k _ => by rw [hz r k]

/-- A bias vector made a row (the reference's way) reads, at (0, q), the vector at q. -/
theorem row_of_vector64 (b : FVec Ideal Cert.ReferenceIdeal.S64 .f32) (q : Fin 64) :
    broadcastInDim Cert.ReferenceIdeal.S1x64 ![1] Cert.ReferenceIdeal.Gen.bcast_S64_S1x64_1 b (ix2 (0 : Fin 1) q) = b (ix1 q) :=
  broadcastInDim_apply _ Cert.ReferenceIdeal.Gen.bcast_S64_S1x64_1 b (ix2 (0 : Fin 1) q) (ix1 q) (fun a => match a with
    | ⟨0, _⟩ => by show q.val = if (64 : Nat) = 1 then 0 else q.val; rw [if_neg (by decide)])

theorem row_of_vector16 (b : FVec Ideal Cert.ReferenceIdeal.S16 .f32) (q : Fin 16) :
    broadcastInDim Cert.ReferenceIdeal.S1x16 ![1] Cert.ReferenceIdeal.Gen.bcast_S16_S1x16_1 b (ix2 (0 : Fin 1) q) = b (ix1 q) :=
  broadcastInDim_apply _ Cert.ReferenceIdeal.Gen.bcast_S16_S1x16_1 b (ix2 (0 : Fin 1) q) (ix1 q) (fun a => match a with
    | ⟨0, _⟩ => by show q.val = if (16 : Nat) = 1 then 0 else q.val; rw [if_neg (by decide)])

/-! ## The two programs' results -/

section Assembly

variable (Y0 : Valuation Cert.ReferenceIdeal.τ Cert.ReferenceIdeal.sig (Elt Ideal))

/-- The reference's buffer contents at the cuts. -/
abbrev rY1 : Valuation Cert.ReferenceIdeal.τ Cert.ReferenceIdeal.sig (Elt Ideal) := after (rseg 0 33) Y0
abbrev rY2 : Valuation Cert.ReferenceIdeal.τ Cert.ReferenceIdeal.sig (Elt Ideal) := after (rseg 33 1) (rY1 Y0)
abbrev rY3 : Valuation Cert.ReferenceIdeal.τ Cert.ReferenceIdeal.sig (Elt Ideal) := after (rseg 34 16) (rY2 Y0)
abbrev rY4 : Valuation Cert.ReferenceIdeal.τ Cert.ReferenceIdeal.sig (Elt Ideal) := after (rseg 50 6) (rY3 Y0)
abbrev rY5 : Valuation Cert.ReferenceIdeal.τ Cert.ReferenceIdeal.sig (Elt Ideal) := after (rseg 56 1) (rY4 Y0)
abbrev rY6 : Valuation Cert.ReferenceIdeal.τ Cert.ReferenceIdeal.sig (Elt Ideal) := after (rseg 57 16) (rY5 Y0)
abbrev rY7 : Valuation Cert.ReferenceIdeal.τ Cert.ReferenceIdeal.sig (Elt Ideal) := after (rseg 73 18) (rY6 Y0)

theorem ref_after_ops : after (Cert.ReferenceIdeal.ValueP.ops (F := Ideal)) Y0 = rY7 Y0 := by
  rw [ref_ops_cut]
  simp only [after_append]

variable (m : (ℓ : Loc Cert.KernelIdeal.nD Cert.KernelIdeal.τ Cert.KernelIdeal.sig) → Buf (Elt Ideal) ℓ) (ρ : Dev Cert.KernelIdeal.nD → PrngReg)

set_option maxHeartbeats 4000000 in
/-- From argument arrays that agree, the reference's result array is the kernel's: the buffers read later agree at every
    cut, and each region's result is the reference's matching dense step. -/
theorem result_eq (c : Dev Cert.KernelIdeal.nD)
    (h0 : Y0 (Proc.devRef .tc Cert.ReferenceIdeal.main_arg0) = Cert.KernelIdeal.Gen.W0 m ρ c (Proc.devRef .tc Cert.KernelIdeal.main_arg0))
    (h1 : Y0 (Proc.devRef .tc Cert.ReferenceIdeal.main_arg1) = Cert.KernelIdeal.Gen.W0 m ρ c (Proc.devRef .tc Cert.KernelIdeal.main_arg1))
    (h2 : Y0 (Proc.devRef .tc Cert.ReferenceIdeal.main_arg2) = Cert.KernelIdeal.Gen.W0 m ρ c (Proc.devRef .tc Cert.KernelIdeal.main_arg2))
    (h3 : Y0 (Proc.devRef .tc Cert.ReferenceIdeal.main_arg3) = Cert.KernelIdeal.Gen.W0 m ρ c (Proc.devRef .tc Cert.KernelIdeal.main_arg3))
    (h4 : Y0 (Proc.devRef .tc Cert.ReferenceIdeal.main_arg4) = Cert.KernelIdeal.Gen.W0 m ρ c (Proc.devRef .tc Cert.KernelIdeal.main_arg4))
    (h5 : Y0 (Proc.devRef .tc Cert.ReferenceIdeal.main_arg5) = Cert.KernelIdeal.Gen.W0 m ρ c (Proc.devRef .tc Cert.KernelIdeal.main_arg5)) :
    after (Cert.ReferenceIdeal.ValueP.ops (F := Ideal)) Y0 (Proc.devRef .tc Cert.ReferenceIdeal.main_v62) = Cert.KernelIdeal.Gen.W7 m ρ c (Proc.devRef .tc Cert.KernelIdeal.main_v58) := by
  rw [ref_after_ops]
  -- the first stretch
  have sA := stretchA (Cert.KernelIdeal.Gen.W0 m ρ c) Y0 h1
  have s3 : Cert.KernelIdeal.Gen.W1 m ρ c (Proc.devRef .tc Cert.KernelIdeal.main_v3) = rY1 Y0 (Proc.devRef .tc Cert.ReferenceIdeal.main_v3) := sA.1
  have s6 : Cert.KernelIdeal.Gen.W1 m ρ c (Proc.devRef .tc Cert.KernelIdeal.main_v6) = rY1 Y0 (Proc.devRef .tc Cert.ReferenceIdeal.main_v6) := sA.2.1
  have s26 : Cert.KernelIdeal.Gen.W1 m ρ c (Proc.devRef .tc Cert.KernelIdeal.main_v26) = rY1 Y0 (Proc.devRef .tc Cert.ReferenceIdeal.main_v26) := sA.2.2
  have ka_arg0 : Cert.KernelIdeal.Gen.W1 m ρ c (Proc.devRef .tc Cert.KernelIdeal.main_arg0) = Cert.KernelIdeal.Gen.W0 m ρ c (Proc.devRef .tc Cert.KernelIdeal.main_arg0) := (keepA_kernel (Cert.KernelIdeal.Gen.W0 m ρ c)).1
  have ka_arg2 : Cert.KernelIdeal.Gen.W1 m ρ c (Proc.devRef .tc Cert.KernelIdeal.main_arg2) = Cert.KernelIdeal.Gen.W0 m ρ c (Proc.devRef .tc Cert.KernelIdeal.main_arg2) := (keepA_kernel (Cert.KernelIdeal.Gen.W0 m ρ c)).2.1
  have ka_arg3 : Cert.KernelIdeal.Gen.W1 m ρ c (Proc.devRef .tc Cert.KernelIdeal.main_arg3) = Cert.KernelIdeal.Gen.W0 m ρ c (Proc.devRef .tc Cert.KernelIdeal.main_arg3) := (keepA_kernel (Cert.KernelIdeal.Gen.W0 m ρ c)).2.2.1
  have ka_arg4 : Cert.KernelIdeal.Gen.W1 m ρ c (Proc.devRef .tc Cert.KernelIdeal.main_arg4) = Cert.KernelIdeal.Gen.W0 m ρ c (Proc.devRef .tc Cert.KernelIdeal.main_arg4) := (keepA_kernel (Cert.KernelIdeal.Gen.W0 m ρ c)).2.2.2.1
  have ka_arg5 : Cert.KernelIdeal.Gen.W1 m ρ c (Proc.devRef .tc Cert.KernelIdeal.main_arg5) = Cert.KernelIdeal.Gen.W0 m ρ c (Proc.devRef .tc Cert.KernelIdeal.main_arg5) := (keepA_kernel (Cert.KernelIdeal.Gen.W0 m ρ c)).2.2.2.2
  have ra_arg0 : rY1 Y0 (Proc.devRef .tc Cert.ReferenceIdeal.main_arg0) = Y0 (Proc.devRef .tc Cert.ReferenceIdeal.main_arg0) := (keepA_ref Y0).1
  have ra_arg2 : rY1 Y0 (Proc.devRef .tc Cert.ReferenceIdeal.main_arg2) = Y0 (Proc.devRef .tc Cert.ReferenceIdeal.main_arg2) := (keepA_ref Y0).2.1
  have ra_arg3 : rY1 Y0 (Proc.devRef .tc Cert.ReferenceIdeal.main_arg3) = Y0 (Proc.devRef .tc Cert.ReferenceIdeal.main_arg3) := (keepA_ref Y0).2.2.1
  have ra_arg4 : rY1 Y0 (Proc.devRef .tc Cert.ReferenceIdeal.main_arg4) = Y0 (Proc.devRef .tc Cert.ReferenceIdeal.main_arg4) := (keepA_ref Y0).2.2.2.1
  have ra_arg5 : rY1 Y0 (Proc.devRef .tc Cert.ReferenceIdeal.main_arg5) = Y0 (Proc.devRef .tc Cert.ReferenceIdeal.main_arg5) := (keepA_ref Y0).2.2.2.2
  -- the first projection
  have rd_v3 : rY2 Y0 (Proc.devRef .tc Cert.ReferenceIdeal.main_v3) = rY1 Y0 (Proc.devRef .tc Cert.ReferenceIdeal.main_v3) := (keep_dot1_ref (rY1 Y0)).1
  have rd_v6 : rY2 Y0 (Proc.devRef .tc Cert.ReferenceIdeal.main_v6) = rY1 Y0 (Proc.devRef .tc Cert.ReferenceIdeal.main_v6) := (keep_dot1_ref (rY1 Y0)).2.1
  have rd_v26 : rY2 Y0 (Proc.devRef .tc Cert.ReferenceIdeal.main_v26) = rY1 Y0 (Proc.devRef .tc Cert.ReferenceIdeal.main_v26) := (keep_dot1_ref (rY1 Y0)).2.2.1
  have rd_arg3 : rY2 Y0 (Proc.devRef .tc Cert.ReferenceIdeal.main_arg3) = rY1 Y0 (Proc.devRef .tc Cert.ReferenceIdeal.main_arg3) := (keep_dot1_ref (rY1 Y0)).2.2.2.1
  have rd_arg4 : rY2 Y0 (Proc.devRef .tc Cert.ReferenceIdeal.main_arg4) = rY1 Y0 (Proc.devRef .tc Cert.ReferenceIdeal.main_arg4) := (keep_dot1_ref (rY1 Y0)).2.2.2.2.1
  have rd_arg5 : rY2 Y0 (Proc.devRef .tc Cert.ReferenceIdeal.main_arg5) = rY1 Y0 (Proc.devRef .tc Cert.ReferenceIdeal.main_arg5) := (keep_dot1_ref (rY1 Y0)).2.2.2.2.2
  have kw2_v3 : Cert.KernelIdeal.Gen.W2 m ρ c (Proc.devRef .tc Cert.KernelIdeal.main_v3) = Cert.KernelIdeal.Gen.W1 m ρ c (Proc.devRef .tc Cert.KernelIdeal.main_v3) := Cert.KernelIdeal.Gen.W2_of_ne m ρ c Cert.KernelIdeal.main_v3 (by decide)
  have kw2_v6 : Cert.KernelIdeal.Gen.W2 m ρ c (Proc.devRef .tc Cert.KernelIdeal.main_v6) = Cert.KernelIdeal.Gen.W1 m ρ c (Proc.devRef .tc Cert.KernelIdeal.main_v6) := Cert.KernelIdeal.Gen.W2_of_ne m ρ c Cert.KernelIdeal.main_v6 (by decide)
  have kw2_v26 : Cert.KernelIdeal.Gen.W2 m ρ c (Proc.devRef .tc Cert.KernelIdeal.main_v26) = Cert.KernelIdeal.Gen.W1 m ρ c (Proc.devRef .tc Cert.KernelIdeal.main_v26) := Cert.KernelIdeal.Gen.W2_of_ne m ρ c Cert.KernelIdeal.main_v26 (by decide)
  have kw2_arg3 : Cert.KernelIdeal.Gen.W2 m ρ c (Proc.devRef .tc Cert.KernelIdeal.main_arg3) = Cert.KernelIdeal.Gen.W1 m ρ c (Proc.devRef .tc Cert.KernelIdeal.main_arg3) := Cert.KernelIdeal.Gen.W2_of_ne m ρ c Cert.KernelIdeal.main_arg3 (by decide)
  have kw2_arg4 : Cert.KernelIdeal.Gen.W2 m ρ c (Proc.devRef .tc Cert.KernelIdeal.main_arg4) = Cert.KernelIdeal.Gen.W1 m ρ c (Proc.devRef .tc Cert.KernelIdeal.main_arg4) := Cert.KernelIdeal.Gen.W2_of_ne m ρ c Cert.KernelIdeal.main_arg4 (by decide)
  have kw2_arg5 : Cert.KernelIdeal.Gen.W2 m ρ c (Proc.devRef .tc Cert.KernelIdeal.main_arg5) = Cert.KernelIdeal.Gen.W1 m ρ c (Proc.devRef .tc Cert.KernelIdeal.main_arg5) := Cert.KernelIdeal.Gen.W2_of_ne m ρ c Cert.KernelIdeal.main_arg5 (by decide)
  have k27 : Cert.KernelIdeal.Gen.W2 m ρ c (Proc.devRef .tc Cert.KernelIdeal.main_v27) = proj64 (Cert.KernelIdeal.Gen.W1 m ρ c (Proc.devRef .tc Cert.KernelIdeal.main_arg0)) (Cert.KernelIdeal.Gen.W1 m ρ c (Proc.devRef .tc Cert.KernelIdeal.main_arg2)) :=
    (Cert.KernelIdeal.Gen.W2_arr m ρ c 2).trans (Cert.KernelIdeal.Hand.region0_result (Cert.KernelIdeal.Gen.V1 m ρ) c)
  have r27 : rY2 Y0 (Proc.devRef .tc Cert.ReferenceIdeal.main_v27) = proj64 (rY1 Y0 (Proc.devRef .tc Cert.ReferenceIdeal.main_arg0)) (rY1 Y0 (Proc.devRef .tc Cert.ReferenceIdeal.main_arg2)) :=
    (dot1_ref (rY1 Y0)).trans (Cert.ReferenceIdeal.Hand.ref_proj64 _ _)
  have e27 : rY2 Y0 (Proc.devRef .tc Cert.ReferenceIdeal.main_v27) = Cert.KernelIdeal.Gen.W2 m ρ c (Proc.devRef .tc Cert.KernelIdeal.main_v27) := by
    rw [r27, k27, ra_arg0, ra_arg2, ka_arg0, ka_arg2, h0, h2]
  have e3_2 : rY2 Y0 (Proc.devRef .tc Cert.ReferenceIdeal.main_v3) = Cert.KernelIdeal.Gen.W2 m ρ c (Proc.devRef .tc Cert.KernelIdeal.main_v3) := by rw [rd_v3, kw2_v3, s3]
  have e6_2 : rY2 Y0 (Proc.devRef .tc Cert.ReferenceIdeal.main_v6) = Cert.KernelIdeal.Gen.W2 m ρ c (Proc.devRef .tc Cert.KernelIdeal.main_v6) := by rw [rd_v6, kw2_v6, s6]
  have e26_2 : rY2 Y0 (Proc.devRef .tc Cert.ReferenceIdeal.main_v26) = Cert.KernelIdeal.Gen.W2 m ρ c (Proc.devRef .tc Cert.KernelIdeal.main_v26) := by rw [rd_v26, kw2_v26, s26]
  -- the second stretch
  have e40 : Cert.KernelIdeal.Gen.W3 m ρ c (Proc.devRef .tc Cert.KernelIdeal.main_v40) = rY3 Y0 (Proc.devRef .tc Cert.ReferenceIdeal.main_v40) := stretchB (Cert.KernelIdeal.Gen.W2 m ρ c) (rY2 Y0) e27 e3_2 e6_2 e26_2
  have kb_v3 : Cert.KernelIdeal.Gen.W3 m ρ c (Proc.devRef .tc Cert.KernelIdeal.main_v3) = Cert.KernelIdeal.Gen.W2 m ρ c (Proc.devRef .tc Cert.KernelIdeal.main_v3) := (keepB_kernel (Cert.KernelIdeal.Gen.W2 m ρ c)).1
  have kb_v6 : Cert.KernelIdeal.Gen.W3 m ρ c (Proc.devRef .tc Cert.KernelIdeal.main_v6) = Cert.KernelIdeal.Gen.W2 m ρ c (Proc.devRef .tc Cert.KernelIdeal.main_v6) := (keepB_kernel (Cert.KernelIdeal.Gen.W2 m ρ c)).2.1
  have kb_v26 : Cert.KernelIdeal.Gen.W3 m ρ c (Proc.devRef .tc Cert.KernelIdeal.main_v26) = Cert.KernelIdeal.Gen.W2 m ρ c (Proc.devRef .tc Cert.KernelIdeal.main_v26) := (keepB_kernel (Cert.KernelIdeal.Gen.W2 m ρ c)).2.2.1
  have kb_arg4 : Cert.KernelIdeal.Gen.W3 m ρ c (Proc.devRef .tc Cert.KernelIdeal.main_arg4) = Cert.KernelIdeal.Gen.W2 m ρ c (Proc.devRef .tc Cert.KernelIdeal.main_arg4) := (keepB_kernel (Cert.KernelIdeal.Gen.W2 m ρ c)).2.2.2.1
  have kb_arg5 : Cert.KernelIdeal.Gen.W3 m ρ c (Proc.devRef .tc Cert.KernelIdeal.main_arg5) = Cert.KernelIdeal.Gen.W2 m ρ c (Proc.devRef .tc Cert.KernelIdeal.main_arg5) := (keepB_kernel (Cert.KernelIdeal.Gen.W2 m ρ c)).2.2.2.2
  have rb_v3 : rY3 Y0 (Proc.devRef .tc Cert.ReferenceIdeal.main_v3) = rY2 Y0 (Proc.devRef .tc Cert.ReferenceIdeal.main_v3) := (keepB_ref (rY2 Y0)).1
  have rb_v6 : rY3 Y0 (Proc.devRef .tc Cert.ReferenceIdeal.main_v6) = rY2 Y0 (Proc.devRef .tc Cert.ReferenceIdeal.main_v6) := (keepB_ref (rY2 Y0)).2.1
  have rb_v26 : rY3 Y0 (Proc.devRef .tc Cert.ReferenceIdeal.main_v26) = rY2 Y0 (Proc.devRef .tc Cert.ReferenceIdeal.main_v26) := (keepB_ref (rY2 Y0)).2.2.1
  have rb_arg3 : rY3 Y0 (Proc.devRef .tc Cert.ReferenceIdeal.main_arg3) = rY2 Y0 (Proc.devRef .tc Cert.ReferenceIdeal.main_arg3) := (keepB_ref (rY2 Y0)).2.2.2.1
  have rb_arg4 : rY3 Y0 (Proc.devRef .tc Cert.ReferenceIdeal.main_arg4) = rY2 Y0 (Proc.devRef .tc Cert.ReferenceIdeal.main_arg4) := (keepB_ref (rY2 Y0)).2.2.2.2.1
  have rb_arg5 : rY3 Y0 (Proc.devRef .tc Cert.ReferenceIdeal.main_arg5) = rY2 Y0 (Proc.devRef .tc Cert.ReferenceIdeal.main_arg5) := (keepB_ref (rY2 Y0)).2.2.2.2.2
  have krow41 : ∀ q : Fin 64, (Cert.KernelIdeal.Gen.W3 m ρ c (Proc.devRef .tc Cert.KernelIdeal.main_v41) : (⟨2, ![1, 64]⟩ : Shape).Idx → EReal) (ix2 (0 : Fin 1) q)
      = (Cert.KernelIdeal.Gen.W2 m ρ c (Proc.devRef .tc Cert.KernelIdeal.main_arg3) : (⟨1, ![64]⟩ : Shape).Idx → EReal) (ix1 q) := biasRowB_kernel (Cert.KernelIdeal.Gen.W2 m ρ c)
  have row41 : ∀ q : Fin 64, (broadcastInDim Cert.ReferenceIdeal.S1x64 ![1] Cert.ReferenceIdeal.Gen.bcast_S64_S1x64_1 (rY3 Y0 (Proc.devRef .tc Cert.ReferenceIdeal.main_arg3)) : (⟨2, ![1, 64]⟩ : Shape).Idx → EReal) (ix2 (0 : Fin 1) q)
      = (Cert.KernelIdeal.Gen.W3 m ρ c (Proc.devRef .tc Cert.KernelIdeal.main_v41) : (⟨2, ![1, 64]⟩ : Shape).Idx → EReal) (ix2 (0 : Fin 1) q) := by
    intro q
    rw [krow41 q, row_of_vector64, rb_arg3, rd_arg3, ra_arg3, h3, kw2_arg3, ka_arg3]
  -- the bias and positive part
  have rr_v3 : rY4 Y0 (Proc.devRef .tc Cert.ReferenceIdeal.main_v3) = rY3 Y0 (Proc.devRef .tc Cert.ReferenceIdeal.main_v3) := (keep_relu_ref (rY3 Y0)).1
  have rr_v6 : rY4 Y0 (Proc.devRef .tc Cert.ReferenceIdeal.main_v6) = rY3 Y0 (Proc.devRef .tc Cert.ReferenceIdeal.main_v6) := (keep_relu_ref (rY3 Y0)).2.1
  have rr_v26 : rY4 Y0 (Proc.devRef .tc Cert.ReferenceIdeal.main_v26) = rY3 Y0 (Proc.devRef .tc Cert.ReferenceIdeal.main_v26) := (keep_relu_ref (rY3 Y0)).2.2.1
  have rr_arg4 : rY4 Y0 (Proc.devRef .tc Cert.ReferenceIdeal.main_arg4) = rY3 Y0 (Proc.devRef .tc Cert.ReferenceIdeal.main_arg4) := (keep_relu_ref (rY3 Y0)).2.2.2.1
  have rr_arg5 : rY4 Y0 (Proc.devRef .tc Cert.ReferenceIdeal.main_arg5) = rY3 Y0 (Proc.devRef .tc Cert.ReferenceIdeal.main_arg5) := (keep_relu_ref (rY3 Y0)).2.2.2.2
  have kw4_v3 : Cert.KernelIdeal.Gen.W4 m ρ c (Proc.devRef .tc Cert.KernelIdeal.main_v3) = Cert.KernelIdeal.Gen.W3 m ρ c (Proc.devRef .tc Cert.KernelIdeal.main_v3) := Cert.KernelIdeal.Gen.W4_of_ne m ρ c Cert.KernelIdeal.main_v3 (by decide)
  have kw4_v6 : Cert.KernelIdeal.Gen.W4 m ρ c (Proc.devRef .tc Cert.KernelIdeal.main_v6) = Cert.KernelIdeal.Gen.W3 m ρ c (Proc.devRef .tc Cert.KernelIdeal.main_v6) := Cert.KernelIdeal.Gen.W4_of_ne m ρ c Cert.KernelIdeal.main_v6 (by decide)
  have kw4_v26 : Cert.KernelIdeal.Gen.W4 m ρ c (Proc.devRef .tc Cert.KernelIdeal.main_v26) = Cert.KernelIdeal.Gen.W3 m ρ c (Proc.devRef .tc Cert.KernelIdeal.main_v26) := Cert.KernelIdeal.Gen.W4_of_ne m ρ c Cert.KernelIdeal.main_v26 (by decide)
  have kw4_arg4 : Cert.KernelIdeal.Gen.W4 m ρ c (Proc.devRef .tc Cert.KernelIdeal.main_arg4) = Cert.KernelIdeal.Gen.W3 m ρ c (Proc.devRef .tc Cert.KernelIdeal.main_arg4) := Cert.KernelIdeal.Gen.W4_of_ne m ρ c Cert.KernelIdeal.main_arg4 (by decide)
  have kw4_arg5 : Cert.KernelIdeal.Gen.W4 m ρ c (Proc.devRef .tc Cert.KernelIdeal.main_arg5) = Cert.KernelIdeal.Gen.W3 m ρ c (Proc.devRef .tc Cert.KernelIdeal.main_arg5) := Cert.KernelIdeal.Gen.W4_of_ne m ρ c Cert.KernelIdeal.main_arg5 (by decide)
  have k42 : Cert.KernelIdeal.Gen.W4 m ρ c (Proc.devRef .tc Cert.KernelIdeal.main_v42) = biasRelu (Cert.KernelIdeal.Gen.W3 m ρ c (Proc.devRef .tc Cert.KernelIdeal.main_v40)) (Cert.KernelIdeal.Gen.W3 m ρ c (Proc.devRef .tc Cert.KernelIdeal.main_v41)) :=
    (Cert.KernelIdeal.Gen.W4_arr m ρ c 2).trans (Cert.KernelIdeal.Hand.region1_result (Cert.KernelIdeal.Gen.V3 m ρ) c)
  have r44 : rY4 Y0 (Proc.devRef .tc Cert.ReferenceIdeal.main_v44) = biasRelu (rY3 Y0 (Proc.devRef .tc Cert.ReferenceIdeal.main_v40))
      (broadcastInDim Cert.ReferenceIdeal.S1x64 ![1] Cert.ReferenceIdeal.Gen.bcast_S64_S1x64_1 (rY3 Y0 (Proc.devRef .tc Cert.ReferenceIdeal.main_arg3))) :=
    (relu_ref (rY3 Y0)).trans (Cert.ReferenceIdeal.Hand.refBiasRelu_eq _ _)
  have e44 : rY4 Y0 (Proc.devRef .tc Cert.ReferenceIdeal.main_v44) = Cert.KernelIdeal.Gen.W4 m ρ c (Proc.devRef .tc Cert.KernelIdeal.main_v42) :=
    r44.trans ((biasRelu_congr e40.symm row41).trans k42.symm)
  -- the second projection
  have re_v3 : rY5 Y0 (Proc.devRef .tc Cert.ReferenceIdeal.main_v3) = rY4 Y0 (Proc.devRef .tc Cert.ReferenceIdeal.main_v3) := (keep_dot2_ref (rY4 Y0)).1
  have re_v6 : rY5 Y0 (Proc.devRef .tc Cert.ReferenceIdeal.main_v6) = rY4 Y0 (Proc.devRef .tc Cert.ReferenceIdeal.main_v6) := (keep_dot2_ref (rY4 Y0)).2.1
  have re_v26 : rY5 Y0 (Proc.devRef .tc Cert.ReferenceIdeal.main_v26) = rY4 Y0 (Proc.devRef .tc Cert.ReferenceIdeal.main_v26) := (keep_dot2_ref (rY4 Y0)).2.2.1
  have re_arg5 : rY5 Y0 (Proc.devRef .tc Cert.ReferenceIdeal.main_arg5) = rY4 Y0 (Proc.devRef .tc Cert.ReferenceIdeal.main_arg5) := (keep_dot2_ref (rY4 Y0)).2.2.2
  have kw5_v3 : Cert.KernelIdeal.Gen.W5 m ρ c (Proc.devRef .tc Cert.KernelIdeal.main_v3) = Cert.KernelIdeal.Gen.W4 m ρ c (Proc.devRef .tc Cert.KernelIdeal.main_v3) := Cert.KernelIdeal.Gen.W5_of_ne m ρ c Cert.KernelIdeal.main_v3 (by decide)
  have kw5_v6 : Cert.KernelIdeal.Gen.W5 m ρ c (Proc.devRef .tc Cert.KernelIdeal.main_v6) = Cert.KernelIdeal.Gen.W4 m ρ c (Proc.devRef .tc Cert.KernelIdeal.main_v6) := Cert.KernelIdeal.Gen.W5_of_ne m ρ c Cert.KernelIdeal.main_v6 (by decide)
  have kw5_v26 : Cert.KernelIdeal.Gen.W5 m ρ c (Proc.devRef .tc Cert.KernelIdeal.main_v26) = Cert.KernelIdeal.Gen.W4 m ρ c (Proc.devRef .tc Cert.KernelIdeal.main_v26) := Cert.KernelIdeal.Gen.W5_of_ne m ρ c Cert.KernelIdeal.main_v26 (by decide)
  have kw5_arg5 : Cert.KernelIdeal.Gen.W5 m ρ c (Proc.devRef .tc Cert.KernelIdeal.main_arg5) = Cert.KernelIdeal.Gen.W4 m ρ c (Proc.devRef .tc Cert.KernelIdeal.main_arg5) := Cert.KernelIdeal.Gen.W5_of_ne m ρ c Cert.KernelIdeal.main_arg5 (by decide)
  have k43 : Cert.KernelIdeal.Gen.W5 m ρ c (Proc.devRef .tc Cert.KernelIdeal.main_v43) = proj16 (Cert.KernelIdeal.Gen.W4 m ρ c (Proc.devRef .tc Cert.KernelIdeal.main_v42)) (Cert.KernelIdeal.Gen.W4 m ρ c (Proc.devRef .tc Cert.KernelIdeal.main_arg4)) :=
    (Cert.KernelIdeal.Gen.W5_arr m ρ c 2).trans (Cert.KernelIdeal.Hand.region2_result (Cert.KernelIdeal.Gen.V4 m ρ) c)
  have r45 : rY5 Y0 (Proc.devRef .tc Cert.ReferenceIdeal.main_v45) = proj16 (rY4 Y0 (Proc.devRef .tc Cert.ReferenceIdeal.main_v44)) (rY4 Y0 (Proc.devRef .tc Cert.ReferenceIdeal.main_arg4)) :=
    (dot2_ref (rY4 Y0)).trans (Cert.ReferenceIdeal.Hand.ref_proj16 _ _)
  have ea4 : rY4 Y0 (Proc.devRef .tc Cert.ReferenceIdeal.main_arg4) = Cert.KernelIdeal.Gen.W4 m ρ c (Proc.devRef .tc Cert.KernelIdeal.main_arg4) := by
    rw [rr_arg4, rb_arg4, rd_arg4, ra_arg4, h4, kw4_arg4, kb_arg4, kw2_arg4, ka_arg4]
  have e45 : rY5 Y0 (Proc.devRef .tc Cert.ReferenceIdeal.main_v45) = Cert.KernelIdeal.Gen.W5 m ρ c (Proc.devRef .tc Cert.KernelIdeal.main_v43) := by
    rw [r45, k43, e44, ea4]
  have e3_5 : rY5 Y0 (Proc.devRef .tc Cert.ReferenceIdeal.main_v3) = Cert.KernelIdeal.Gen.W5 m ρ c (Proc.devRef .tc Cert.KernelIdeal.main_v3) := by
    rw [re_v3, rr_v3, rb_v3, e3_2, kw5_v3, kw4_v3, kb_v3]
  have e6_5 : rY5 Y0 (Proc.devRef .tc Cert.ReferenceIdeal.main_v6) = Cert.KernelIdeal.Gen.W5 m ρ c (Proc.devRef .tc Cert.KernelIdeal.main_v6) := by
    rw [re_v6, rr_v6, rb_v6, e6_2, kw5_v6, kw4_v6, kb_v6]
  have e26_5 : rY5 Y0 (Proc.devRef .tc Cert.ReferenceIdeal.main_v26) = Cert.KernelIdeal.Gen.W5 m ρ c (Proc.devRef .tc Cert.KernelIdeal.main_v26) := by
    rw [re_v26, rr_v26, rb_v26, e26_2, kw5_v26, kw4_v26, kb_v26]
  -- the third stretch
  have e56 : Cert.KernelIdeal.Gen.W6 m ρ c (Proc.devRef .tc Cert.KernelIdeal.main_v56) = rY6 Y0 (Proc.devRef .tc Cert.ReferenceIdeal.main_v58) := stretchC (Cert.KernelIdeal.Gen.W5 m ρ c) (rY5 Y0) e45 e3_5 e6_5 e26_5
  have rc_arg5 : rY6 Y0 (Proc.devRef .tc Cert.ReferenceIdeal.main_arg5) = rY5 Y0 (Proc.devRef .tc Cert.ReferenceIdeal.main_arg5) := keepC_ref (rY5 Y0)
  have krow57 : ∀ q : Fin 16, (Cert.KernelIdeal.Gen.W6 m ρ c (Proc.devRef .tc Cert.KernelIdeal.main_v57) : (⟨2, ![1, 16]⟩ : Shape).Idx → EReal) (ix2 (0 : Fin 1) q)
      = (Cert.KernelIdeal.Gen.W5 m ρ c (Proc.devRef .tc Cert.KernelIdeal.main_arg5) : (⟨1, ![16]⟩ : Shape).Idx → EReal) (ix1 q) := biasRowC_kernel (Cert.KernelIdeal.Gen.W5 m ρ c)
  have row57 : ∀ q : Fin 16, (broadcastInDim Cert.ReferenceIdeal.S1x16 ![1] Cert.ReferenceIdeal.Gen.bcast_S16_S1x16_1 (rY6 Y0 (Proc.devRef .tc Cert.ReferenceIdeal.main_arg5)) : (⟨2, ![1, 16]⟩ : Shape).Idx → EReal) (ix2 (0 : Fin 1) q)
      = (Cert.KernelIdeal.Gen.W6 m ρ c (Proc.devRef .tc Cert.KernelIdeal.main_v57) : (⟨2, ![1, 16]⟩ : Shape).Idx → EReal) (ix2 (0 : Fin 1) q) := by
    intro q
    rw [krow57 q, row_of_vector16, rc_arg5, re_arg5, rr_arg5, rb_arg5, rd_arg5, ra_arg5, h5, kw5_arg5, kw4_arg5, kb_arg5, kw2_arg5, ka_arg5]
  -- the bias and log-softmax
  have k58 : Cert.KernelIdeal.Gen.W7 m ρ c (Proc.devRef .tc Cert.KernelIdeal.main_v58) = biasLogSoftmax (Cert.KernelIdeal.Gen.W6 m ρ c (Proc.devRef .tc Cert.KernelIdeal.main_v56)) (Cert.KernelIdeal.Gen.W6 m ρ c (Proc.devRef .tc Cert.KernelIdeal.main_v57)) :=
    (Cert.KernelIdeal.Gen.W7_arr m ρ c 2).trans (Cert.KernelIdeal.Hand.region3_result (Cert.KernelIdeal.Gen.V6 m ρ) c)
  have r62 : rY7 Y0 (Proc.devRef .tc Cert.ReferenceIdeal.main_v62) = biasLogSoftmax (rY6 Y0 (Proc.devRef .tc Cert.ReferenceIdeal.main_v58))
      (broadcastInDim Cert.ReferenceIdeal.S1x16 ![1] Cert.ReferenceIdeal.Gen.bcast_S16_S1x16_1 (rY6 Y0 (Proc.devRef .tc Cert.ReferenceIdeal.main_arg5))) :=
    (logSoftmax_ref (rY6 Y0)).trans (Cert.ReferenceIdeal.Hand.refBiasLogSoftmax_eq _ _)
  exact r62.trans ((biasLogSoftmax_congr e56.symm row57).trans k58.symm)

end Assembly

end Cert.Stages

end
-- ==== Proof.lean ====
/-
  The certificate of a two-layer graph convolution: a kernel that computes its dense steps in four pipelined regions
  (projection, bias and positive part, projection, bias and log-softmax) and its sparse aggregation on the host, against a
  reference that computes everything on the host.

  Frames: the two kernel programs' frames are the generated ones; the reference's is its run with the result dropped.
  Nothing was rewritten by the idealization, so there is nothing to preserve.  Equality of the results over the extended
  reals: the kernel's run ends with its result array at the last segment boundary's contents (Proof/KernelRun.lean); each
  region leaves the whole-array function of what it found (Proof/Region*.lean, over Proof/Spec.lean); the reference's
  dense operations are the same functions (Proof/RefDense.lean); the host stretches between them are the same operations
  on equal operands, so the two results agree cut by cut (Proof/Stages.lean).  No step needs the inputs to be finite:
  both programs add and multiply the same extended reals in the same grouping except inside a row's sum and maximum, which
  are commutative and associative.
-/
import proofs.«165960_j16389595201742_2_alg».proof.Defs
import proofs.«165960_j16389595201742_2_alg».proof.Proof.Gen.Kernel
import proofs.«165960_j16389595201742_2_alg».proof.Proof.Gen.Kernel.Frame
import proofs.«165960_j16389595201742_2_alg».proof.Proof.Gen.KernelIdeal
import proofs.«165960_j16389595201742_2_alg».proof.Proof.Gen.KernelIdeal.Frame
import proofs.«165960_j16389595201742_2_alg».proof.Proof.Gen.ReferenceIdeal
import proofs.«165960_j16389595201742_2_alg».proof.Proof.Gen.Pre_finite_inputs
import proofs.«165960_j16389595201742_2_alg».proof.Proof.KernelRun
import proofs.«165960_j16389595201742_2_alg».proof.Proof.RefRun
import proofs.«165960_j16389595201742_2_alg».proof.Proof.Stages
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both idealized programs run, and the reference's result array is the
    kernel's, entry by entry. -/
theorem algebraic : Cert.algebraic_KernelIdeal_ReferenceIdeal := by
  intro m ρ m' ρ' _ hagree
  refine ⟨fun c => Cert.KernelIdeal.Gen.W7 m ρ c (Proc.devRef .tc Cert.KernelIdeal.main_v58),
    Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact Cert.Stages.result_eq (launchContents m' c) m ρ c a0 a1 a2 a3 a4 a5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
